-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256x4 : Shape := ⟨3, ![32768, 256, 4]⟩
abbrev S256x256x4 : Shape := ⟨3, ![256, 256, 4]⟩
abbrev S256x4 : Shape := ⟨2, ![256, 4]⟩
abbrev S_ : Shape := ⟨0, ![]⟩

class Facts : Prop where
  bcast_S_S32768x256x4 : S_.BroadcastsInDim S32768x256x4 (![] : Fin 0 → Fin S32768x256x4.rank)
  reducesTo_S32768x256x4_S_d0_1_2 : S32768x256x4.ReducesTo [0, 1, 2] S_
  h_S_ : 0 < S_.numel
  bcast_S_S256x256x4 : S_.BroadcastsInDim S256x256x4 (![] : Fin 0 → Fin S256x256x4.rank)
  reducesTo_S256x256x4_S_d0_1_2 : S256x256x4.ReducesTo [0, 1, 2] S_
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S32768x256x4 .f32) (main_arg1 : FVec F S256x256x4 .f32) (main_arg2 : FVec F S256x4 .f32) : IVec S_ 1 :=
  let main_v0 : FVec F S32768x256x4 .f32 := Host.absf main_arg0
  let main_cst : FVec F S_ .f32 := constant S_ .f32 0x7F800000#32
  let main_v1 : FVec F S32768x256x4 .f32 := broadcastInDim S32768x256x4 ![] bcast_S_S32768x256x4 main_cst
  let main_v2 : IVec S32768x256x4 1 := cmpf .olt main_v0 main_v1
  let main_c : IVec S_ 1 := constantI S_ 1 1#1
  let main_v3 : IVec S_ 1 := (fun x v => Host.reduce IntOp.andi x v reducesTo_S32768x256x4_S_d0_1_2 h_S_) main_v2 main_c
  let main_v4 : FVec F S256x256x4 .f32 := Host.absf main_arg1
  let main_cst_0 : FVec F S_ .f32 := constant S_ .f32 0x7F800000#32
  let main_v5 : FVec F S256x256x4 .f32 := broadcastInDim S256x256x4 ![] bcast_S_S256x256x4 main_cst_0
  let main_v6 : IVec S256x256x4 1 := cmpf .olt main_v4 main_v5
  let main_c_1 : IVec S_ 1 := constantI S_ 1 1#1
  let main_v7 : IVec S_ 1 := (fun x v => Host.reduce IntOp.andi x v reducesTo_S256x256x4_S_d0_1_2 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  main_v13
-- ==== Kernel.lean ====
abbrev S32768x256x4 : Shape := ⟨3, ![32768, 256, 4]⟩
abbrev S256x256x4 : Shape := ⟨3, ![256, 256, 4]⟩
abbrev S256x4 : Shape := ⟨2, ![256, 4]⟩
abbrev S256x256x1 : Shape := ⟨3, ![256, 256, 1]⟩
abbrev S256x256 : Shape := ⟨2, ![256, 256]⟩
abbrev S_ : Shape := ⟨0, ![]⟩
abbrev S256x1x256x4 : Shape := ⟨4, ![256, 1, 256, 4]⟩
abbrev S256x4x256x4 : Shape := ⟨4, ![256, 4, 256, 4]⟩
abbrev S1024x1024 : Shape := ⟨2, ![1024, 1024]⟩
abbrev S1x1024 : Shape := ⟨2, ![1, 1024]⟩
abbrev S32768x1024 : Shape := ⟨2, ![32768, 1024]⟩
abbrev S2048x1024 : Shape := ⟨2, ![2048, 1024]⟩

abbrev nBuf : Space → Nat
  | .hbm => 106
  | .vmem => 6
  | .smem => 0
  | _ => 0

abbrev bufTy : (tb : Table) → Fin (tcTables nBuf tb) → BufTy
  | .hbm, ⟨0, _⟩ => ⟨S32768x256x4, .f32⟩
  | .hbm, ⟨1, _⟩ => ⟨S256x256x4, .f32⟩
  | .hbm, ⟨2, _⟩ => ⟨S256x4, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x256x1, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256x1, .f32⟩
  | .hbm, ⟨28, _⟩ => ⟨S256x256x1, .f32⟩
  | .hbm, ⟨29, _⟩ => ⟨S256x256x1, .f32⟩
  | .hbm, ⟨30, _⟩ => ⟨S256x256x1, .f32⟩
  | .hbm, ⟨31, _⟩ => ⟨S256x256x4, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256x1, .f32⟩
  | .hbm, ⟨49, _⟩ => ⟨S256x256x1, .f32⟩
  | .hbm, ⟨50, _⟩ => ⟨S256x256x1, .f32⟩
  | .hbm, ⟨51, _⟩ => ⟨S256x256x1, .f32⟩
  | .hbm, ⟨52, _⟩ => ⟨S256x256x4, .f32⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S256x256x1, .f32⟩
  | .hbm, ⟨70, _⟩ => ⟨S256x256x1, .f32⟩
  | .hbm, ⟨71, _⟩ => ⟨S256x256x1, .f32⟩
  | .hbm, ⟨72, _⟩ => ⟨S256x256x1, .f32⟩
  | .hbm, ⟨73, _⟩ => ⟨S256x256x4, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S_, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S_, .f32⟩
  | .hbm, ⟨88, _⟩ => ⟨S256x256, .f32⟩
  | .hbm, ⟨89, _⟩ => ⟨S256x256, .f32⟩
  | .hbm, ⟨90, _⟩ => ⟨S256x256x1, .f32⟩
  | .hbm, ⟨91, _⟩ => ⟨S256x256x1, .f32⟩
  | .hbm, ⟨92, _⟩ => ⟨S256x256x1, .f32⟩
  | .hbm, ⟨93, _⟩ => ⟨S256x256x1, .f32⟩
  | .hbm, ⟨94, _⟩ => ⟨S256x256x4, .f32⟩
  | .hbm, ⟨95, _⟩ => ⟨S256x1x256x4, .f32⟩
  | .hbm, ⟨96, _⟩ => ⟨S256x1x256x4, .f32⟩
  | .hbm, ⟨97, _⟩ => ⟨S256x1x256x4, .f32⟩
  | .hbm, ⟨98, _⟩ => ⟨S256x1x256x4, .f32⟩
  | .hbm, ⟨99, _⟩ => ⟨S256x4x256x4, .f32⟩
  | .hbm, ⟨100, _⟩ => ⟨S1024x1024, .f32⟩
  | .hbm, ⟨101, _⟩ => ⟨S1024x1024, .bf16⟩
  | .hbm, ⟨102, _⟩ => ⟨S1x1024, .f32⟩
  | .hbm, ⟨103, _⟩ => ⟨S32768x1024, .f32⟩
  | .hbm, ⟨104, _⟩ => ⟨S32768x1024, .f32⟩
  | .hbm, ⟨105, _⟩ => ⟨S32768x256x4, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S32768x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  transposes_S256x256_S256x256_1_0 : S256x256.Transposes [1, 0] S256x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  concatenates_S256x256x1_S256x256x1_S256x256x1_S256x256x1_S256x256x4_d2 : Shape.Concatenates [S256x256x1, S256x256x1, S256x256x1, S256x256x1] S256x256x4 2
  bcast_S256x256x4_S256x1x256x4_0_2_3 : S256x256x4.BroadcastsInDim S256x1x256x4 (![0, 2, 3] : Fin 3 → Fin S256x1x256x4.rank)
  concatenates_S256x1x256x4_S256x1x256x4_S256x1x256x4_S256x1x256x4_S256x4x256x4_d1 : Shape.Concatenates [S256x1x256x4, S256x1x256x4, S256x1x256x4, S256x1x256x4] S256x4x256x4 1
  shapeCasts_S256x4x256x4_S1024x1024 : S256x4x256x4.ShapeCasts S1024x1024
  bitsLt_bf16_f32 : FTy.bits .bf16 < FTy.bits .f32
  shapeCasts_S256x4_S1x1024 : S256x4.ShapeCasts S1x1024
  shapeCasts_S32768x256x4_S32768x1024 : S32768x256x4.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S32768x256x4 : S32768x1024.ShapeCasts S32768x256x4
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v84) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v85) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256x4 : Shape := ⟨3, ![32768, 256, 4]⟩
abbrev S256x256x4 : Shape := ⟨3, ![256, 256, 4]⟩
abbrev S256x4 : Shape := ⟨2, ![256, 4]⟩
abbrev S32768x256x1 : Shape := ⟨3, ![32768, 256, 1]⟩
abbrev S32768x256 : Shape := ⟨2, ![32768, 256]⟩
abbrev S256x256x1 : Shape := ⟨3, ![256, 256, 1]⟩
abbrev S256x256 : Shape := ⟨2, ![256, 256]⟩
abbrev S1x256x4 : Shape := ⟨3, ![1, 256, 4]⟩

abbrev nBuf : Space → Nat
  | .hbm => 55
  | .vmem => 0
  | .smem => 0
  | _ => 0

abbrev bufTy : (tb : Table) → Fin (tcTables nBuf tb) → BufTy
  | .hbm, ⟨0, _⟩ => ⟨S32768x256x4, .f32⟩
  | .hbm, ⟨1, _⟩ => ⟨S256x256x4, .f32⟩
  | .hbm, ⟨2, _⟩ => ⟨S256x4, .f32⟩
  | .hbm, ⟨3, _⟩ => ⟨S32768x256x1, .f32⟩
  | .hbm, ⟨4, _⟩ => ⟨S32768x256, .f32⟩
  | .hbm, ⟨5, _⟩ => ⟨S32768x256x1, .f32⟩
  | .hbm, ⟨6, _⟩ => ⟨S32768x256, .f32⟩
  | .hbm, ⟨7, _⟩ => ⟨S32768x256x1, .f32⟩
  | .hbm, ⟨8, _⟩ => ⟨S32768x256, .f32⟩
  | .hbm, ⟨9, _⟩ => ⟨S32768x256x1, .f32⟩
  | .hbm, ⟨10, _⟩ => ⟨S32768x256, .f32⟩
  | .hbm, ⟨11, _⟩ => ⟨S256x256x1, .f32⟩
  | .hbm, ⟨12, _⟩ => ⟨S256x256, .f32⟩
  | .hbm, ⟨13, _⟩ => ⟨S256x256x1, .f32⟩
  | .hbm, ⟨14, _⟩ => ⟨S256x256, .f32⟩
  | .hbm, ⟨15, _⟩ => ⟨S256x256x1, .f32⟩
  | .hbm, ⟨16, _⟩ => ⟨S256x256, .f32⟩
  | .hbm, ⟨17, _⟩ => ⟨S256x256x1, .f32⟩
  | .hbm, ⟨18, _⟩ => ⟨S256x256, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256x1, .f32⟩
  | .hbm, ⟨48, _⟩ => ⟨S32768x256x1, .f32⟩
  | .hbm, ⟨49, _⟩ => ⟨S32768x256x1, .f32⟩
  | .hbm, ⟨50, _⟩ => ⟨S32768x256x1, .f32⟩
  | .hbm, ⟨51, _⟩ => ⟨S32768x256x4, .f32⟩
  | .hbm, ⟨52, _⟩ => ⟨S1x256x4, .f32⟩
  | .hbm, ⟨53, _⟩ => ⟨S32768x256x4, .f32⟩
  | .hbm, ⟨54, _⟩ => ⟨S32768x256x4, .f32⟩
  | _, _ => ⟨S32768x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩

abbrev nD : Nat := 1
abbrev τ : Topo := Topo.v7x

variable {F : FTy → Type} [FloatOps F]

class Facts₀ : Prop where
  slices_S32768x256x4_S32768x256x1_0_0_0 : S32768x256x4.Slices ![0, 0, 0] S32768x256x1
  shapeCasts_S32768x256x1_S32768x256 : S32768x256x1.ShapeCasts S32768x256
  slices_S32768x256x4_S32768x256x1_0_0_1 : S32768x256x4.Slices ![0, 0, 1] S32768x256x1
  slices_S32768x256x4_S32768x256x1_0_0_2 : S32768x256x4.Slices ![0, 0, 2] S32768x256x1
  slices_S32768x256x4_S32768x256x1_0_0_3 : S32768x256x4.Slices ![0, 0, 3] S32768x256x1
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  bcast_S32768x256_S32768x256x1_0_1 : S32768x256.BroadcastsInDim S32768x256x1 (![0, 1] : Fin 2 → Fin S32768x256x1.rank)
  concatenates_S32768x256x1_S32768x256x1_S32768x256x1_S32768x256x1_S32768x256x4_d2 : Shape.Concatenates [S32768x256x1, S32768x256x1, S32768x256x1, S32768x256x1] S32768x256x4 2
  bcast_S256x4_S1x256x4_1_2 : S256x4.BroadcastsInDim S1x256x4 (![1, 2] : Fin 2 → Fin S1x256x4.rank)
  bcast_S1x256x4_S32768x256x4_0_1_2 : S1x256x4.BroadcastsInDim S32768x256x4 (![0, 1, 2] : Fin 3 → Fin S32768x256x4.rank)
  dot_S32768x256_S256x256_S32768x256_1_1_0_0_n_n_wf : DotDims.WF S32768x256 S256x256 S32768x256 [1] [1] [0] [0] [] []

variable [Facts₀]

def dot_S32768x256_S256x256_S32768x256_1_1_0_0_n_n : DotDims S32768x256 S256x256 S32768x256 where
  lhsContracting := [1]
  rhsContracting := [1]
  lhsNonContracting := [0]
  rhsNonContracting := [0]
  lhsBatch := []
  rhsBatch := []
  wf := dot_S32768x256_S256x256_S32768x256_1_1_0_0_n_n_wf

class Facts : Prop extends Facts₀ where

variable [Facts]
-- ==== Proof.FrameRunBits.lean ====
/-
  The run of the program around its one region, at any reading `F` of the floats.

  @main is: a stretch of host operations that lay the weight out as a 1024 × 1024 matrix and flatten the input and the
  bias; the region — sixteen grid points, point `t` taking rows `2048 t … 2048 t + 2047` of the flattened input, the whole
  matrix and the whole bias row, and writing the same rows of the result —; and one host operation that gives the result
  back its quaternion axis. At every point the body loads its three input blocks whole, and stores ONE value over the
  whole output block: `blockOut` below, the body's arithmetic (the generated payload) of the three blocks. So the
  proof data of the region is: each input's buffer holds that window's block at the point, the output's buffer ends at
  `blockOut` of them; nothing is kept from point to point. From that the library's run of a region between two stretches of
  host operations gives termination, no fault, every array of the region at the contents the proof data computes, and
  every other buffer at what the last stretch leaves — in particular the three argument arrays, which no operation
  writes, as they were.
-/
import proofs.«149754_j7189775253858_1_alg».proof.Proof.Gen.Kernel.Launch
import proofs.«149754_j7189775253858_1_alg».proof.Proof.Gen.Kernel.Skeleton
import proofs.«149754_j7189775253858_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the first stretch of host operations. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the region's arrays (its one operation writes the final result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No operation of the first stretch writes an argument array: the region finds each as launched. -/
theorem V_arg (a : Ref sig .tc) (ha : a = main_arg0 ∨ a = main_arg1 ∨ a = main_arg2) (c : Dev nD) :
    V m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    rcases ha with rfl | rfl | rfl
    all_goals repeat' apply And.intro
    all_goals exact StableHlo.devRef_ne_of_ne (by decide)))

/-- Nor does the last stretch: each argument array ends as launched. -/
theorem W_arg (a : Ref sig .tc) (ha : a = main_arg0 ∨ a = main_arg1 ∨ a = main_arg2)
    (dats : (p : Fin _) → (c : Dev nD) → Dat τ (Elt F) Unit ℕ (UR sig nD τ) ℕ (cfgs p) c) (c : Dev nD) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      rcases ha with rfl | rfl | rfl
      all_goals exact StableHlo.devRef_ne_of_ne (by decide))),
    Pipeline.withArrays_of_ne _ c (V0 m c) _ a (by
      rcases ha with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V_arg m a ha c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds that window's block at every point, whether the point fetched it or an earlier point did
    and the block has not moved since; for any proof data whose array is the region-entry contents and whose body leaves
    the block in place. Window 0: the rows of the flattened input. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: the whole matrix. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the whole bias row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run ending with every buffer that bypasses the region at what the last stretch leaves has the three argument
    arrays as launched: none is an array of the region, and neither stretch writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m main_arg0 (.inl rfl) dats c),
     ((h c).2 main_arg1 (Pipeline.mem_restRefs_of main_arg1 (by decide) (by decide))).trans (W_arg m main_arg1 (.inr (.inl rfl)) dats c),
     ((h c).2 main_arg2 (Pipeline.mem_restRefs_of main_arg2 (by decide) (by decide))).trans (W_arg m main_arg2 (.inr (.inr rfl)) dats c)⟩) h

/-! ## What the body leaves in the output block -/

/-- The whole of an input block of 2048 rows, of the matrix, of the bias row: the rectangles the body's loads and its one
    store go through. -/
abbrev rX : Rect S2048x1024 := Rect.unit (s := S2048x1024) ![0, 0] S2048x1024.size inb_S2048x1024_S2048x1024_0_0
abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output block after the body, from the three input blocks: its one store, over the whole block, of the body's
    arithmetic of the three loads. -/
def blockOut (x0 : Vec F S2048x1024 .f32) (x1 : Vec F S1024x1024 .bf16) (x2 : Vec F S1x1024 .f32) : Vec F S2048x1024 .f32 :=
  View.canon [⟨rX, k0_pay1 (View.ld x0 rX) (View.ld x1 rM) (View.ld x2 rB)⟩]

/-- The one store covers the block. -/
theorem cover_out (p0 : Vec F S2048x1024 .f32) (y : S2048x1024.Idx) :
    ∃ pc ∈ ([⟨rX, p0⟩] : List (View.Piece (Elt F) S2048x1024 .f32)), y ∈ pc.1.set :=
  View.cover_of_tiled [⟨rX, p0⟩] S2048x1024.size (by rfl) y

/-! ## The body's triple -/

set_option maxHeartbeats 1000000 in
/-- The body on whole buffers, the three inputs' at read contents `x0 x1 x2` and the output's at anything, runs to its end
    with the inputs' as they were and the output's at `blockOut` of them. (It also loads the output buffer before storing;
    the loaded value is not used.) -/
theorem sound_kernel (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .f32) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__quat_kernel i arg1 harg1 arg2 harg2 arg3 harg3 arg4 harg4) K := by
  simp only [cc0__quat_kernel_eq_skeleton]; unfold cc0__quat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The proof data of the region on core `c`: the arrays as the region finds them; after the body at point `t` each input's
    buffer at its block and the output's at `blockOut` of the three input blocks; the invariant is the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting, with every array
    of the region at what the library computes from the proof data and every other unscoped buffer as the last stretch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: it runs to its end, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.FrameRun

end
-- ==== Proof.FrameRunIdeal.lean ====
/-
  The run of the program around its one region, at any reading `F` of the floats.

  @main is: a stretch of host operations that lay the weight out as a 1024 × 1024 matrix and flatten the input and the
  bias; the region — sixteen grid points, point `t` taking rows `2048 t … 2048 t + 2047` of the flattened input, the whole
  matrix and the whole bias row, and writing the same rows of the result —; and one host operation that gives the result
  back its quaternion axis. At every point the body loads its three input blocks whole, and stores ONE value over the
  whole output block: `blockOut` below, the body's arithmetic (the generated payload) of the three blocks. So the
  proof data of the region is: each input's buffer holds that window's block at the point, the output's buffer ends at
  `blockOut` of them; nothing is kept from point to point. From that the library's run of a region between two stretches of
  host operations gives termination, no fault, every array of the region at the contents the proof data computes, and
  every other buffer at what the last stretch leaves — in particular the three argument arrays, which no operation
  writes, as they were.
-/
import proofs.«149754_j7189775253858_1_alg».proof.Proof.Gen.KernelIdeal.Launch
import proofs.«149754_j7189775253858_1_alg».proof.Proof.Gen.KernelIdeal.Skeleton
import proofs.«149754_j7189775253858_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the first stretch of host operations. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the region's arrays (its one operation writes the final result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No operation of the first stretch writes an argument array: the region finds each as launched. -/
theorem V_arg (a : Ref sig .tc) (ha : a = main_arg0 ∨ a = main_arg1 ∨ a = main_arg2) (c : Dev nD) :
    V m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    rcases ha with rfl | rfl | rfl
    all_goals repeat' apply And.intro
    all_goals exact StableHlo.devRef_ne_of_ne (by decide)))

/-- Nor does the last stretch: each argument array ends as launched. -/
theorem W_arg (a : Ref sig .tc) (ha : a = main_arg0 ∨ a = main_arg1 ∨ a = main_arg2)
    (dats : (p : Fin _) → (c : Dev nD) → Dat τ (Elt F) Unit ℕ (UR sig nD τ) ℕ (cfgs p) c) (c : Dev nD) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      rcases ha with rfl | rfl | rfl
      all_goals exact StableHlo.devRef_ne_of_ne (by decide))),
    Pipeline.withArrays_of_ne _ c (V0 m c) _ a (by
      rcases ha with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V_arg m a ha c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds that window's block at every point, whether the point fetched it or an earlier point did
    and the block has not moved since; for any proof data whose array is the region-entry contents and whose body leaves
    the block in place. Window 0: the rows of the flattened input. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: the whole matrix. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the whole bias row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run ending with every buffer that bypasses the region at what the last stretch leaves has the three argument
    arrays as launched: none is an array of the region, and neither stretch writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m main_arg0 (.inl rfl) dats c),
     ((h c).2 main_arg1 (Pipeline.mem_restRefs_of main_arg1 (by decide) (by decide))).trans (W_arg m main_arg1 (.inr (.inl rfl)) dats c),
     ((h c).2 main_arg2 (Pipeline.mem_restRefs_of main_arg2 (by decide) (by decide))).trans (W_arg m main_arg2 (.inr (.inr rfl)) dats c)⟩) h

/-! ## What the body leaves in the output block -/

/-- The whole of an input block of 2048 rows, of the matrix, of the bias row: the rectangles the body's loads and its one
    store go through. -/
abbrev rX : Rect S2048x1024 := Rect.unit (s := S2048x1024) ![0, 0] S2048x1024.size inb_S2048x1024_S2048x1024_0_0
abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output block after the body, from the three input blocks: its one store, over the whole block, of the body's
    arithmetic of the three loads. -/
def blockOut (x0 : Vec F S2048x1024 .f32) (x1 : Vec F S1024x1024 .bf16) (x2 : Vec F S1x1024 .f32) : Vec F S2048x1024 .f32 :=
  View.canon [⟨rX, k0_pay1 (View.ld x0 rX) (View.ld x1 rM) (View.ld x2 rB)⟩]

/-- The one store covers the block. -/
theorem cover_out (p0 : Vec F S2048x1024 .f32) (y : S2048x1024.Idx) :
    ∃ pc ∈ ([⟨rX, p0⟩] : List (View.Piece (Elt F) S2048x1024 .f32)), y ∈ pc.1.set :=
  View.cover_of_tiled [⟨rX, p0⟩] S2048x1024.size (by rfl) y

/-! ## The body's triple -/

set_option maxHeartbeats 1000000 in
/-- The body on whole buffers, the three inputs' at read contents `x0 x1 x2` and the output's at anything, runs to its end
    with the inputs' as they were and the output's at `blockOut` of them. (It also loads the output buffer before storing;
    the loaded value is not used.) -/
theorem sound_kernel (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .f32) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__quat_kernel i arg1 harg1 arg2 harg2 arg3 harg3 arg4 harg4) K := by
  simp only [cc0__quat_kernel_eq_skeleton]; unfold cc0__quat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The proof data of the region on core `c`: the arrays as the region finds them; after the body at point `t` each input's
    buffer at its block and the output's at `blockOut` of the three input blocks; the invariant is the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting, with every array
    of the region at what the library computes from the proof data and every other unscoped buffer as the last stretch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: it runs to its end, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.FrameRun

end
-- ==== Proof.LibMatmulRows.lean ====
/-
  A product of an m×k by a k×n matrix into a zero accumulator, at the exact reading of the floats, read at one entry:

      (A · B)[a, b] = Σ_c A[a, c] · B[c, b],

  the sum over the one contracted coordinate. Also a row vector [1, n] spread over m rows read at an entry: B[0, b].
  Both for every m, k, n; sums are over the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefSide

open Idealize.ShloMosaic Idealize.ShloMosaic.ValueIdx

/-- Rows times columns: contracting the left operand's axis 1 with the right operand's axis 0, into a zero accumulator. -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row [1, n] spread over m rows, read at (a, b), is the row at (0, b). -/
theorem broadcast_row_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => exact (if_pos rfl).symm
  | ⟨1, _⟩ =>
    by_cases h1 : n = 1
    · subst h1
      show (b : Nat) = if (1 : Nat) = 1 then 0 else _
      rw [if_pos rfl]; omega
    · exact (if_neg h1).symm

end Cert.RefSide

end
-- ==== Proof.LibTrailingAxes.lean ====
/-
  Layout operations of small shapes read at an index, for all extents: a trailing unit axis added to a matrix and
  repeated, a vector set as a [1, 1, c] stack and repeated over both leading axes, a one-column matrix repeated
  across columns, and a stack [a, b, c] with its two trailing axes merged into one of length b·c, and split again.
  Each cast reads the operand at the index with the same row-major position; each repeat reads the operand with 0
  on its unit axes.
-/
import Idealize.ShloMosaic.PureOps.Ideal
import Idealize.ShloMosaic.Lib.ValueIdx
import Idealize.ShloMosaic.Lib.ValueLayout
import Idealize.ShloMosaic.Lib.Pipeline.Value
import Mathlib.Tactic.Ring

noncomputable section

namespace Cert.PairNet.Layout

open Idealize.ShloMosaic Idealize.ShloMosaic.ValueIdx

variable {α : Type}

/-- An [a, b] matrix cast to [a, b, 1] reads, at (i, j, 0), the matrix at (i, j). -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have hu : u.val = 0 := by have := u.isLt; omega
    rw [hu, Nat.mul_one, Nat.add_zero])

/-- An [a, b, 1] stack repeated to [a, b, c] reads, at (i, j, k), the stack at (i, j, 0). -/
theorem bcast_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) (fun ax => ?_)
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector [c] cast to [1, 1, c] reads, at (0, 0, k), the vector at k. -/
theorem cast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    rw [Shape.rowMajor_val_one, Shape.rowMajor_val_three]
    show k.val = (u.val * 1 + v.val) * c + k.val
    have hu : u.val = 0 := by have := u.isLt; omega
    have hv : v.val = 0 := by have := v.isLt; omega
    rw [hu, hv]; simp)

/-- A [1, 1, c] stack repeated to [a, b, c] reads, at (i, j, k), the stack at (0, 0, k). -/
theorem bcast_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) (fun ax => ?_)
  match ax with
  | ⟨0, _⟩ => rfl
  | ⟨1, _⟩ => rfl
  | ⟨2, _⟩ =>
    show k.val = if c = 1 then 0 else k.val
    split
    · have := k.isLt; omega
    · rfl

/-- An [a, 1] column repeated to [a, b] reads, at (i, j), the column at (i, 0). -/
theorem bcast_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) (fun ax => ?_)
  match ax with
  | ⟨0, _⟩ =>
    show i.val = if a = 1 then 0 else i.val
    split
    · have := i.isLt; omega
    · rfl
  | ⟨1, _⟩ => rfl

/-- An [a, b, c] stack with its two trailing axes merged, [a, b·c], reads, at (i, j·c + k), the stack at (i, j, k). -/
theorem cast_abc_aR_apply {a b c R : ℕ} (hR : R = b * c) (x : (⟨3, ![a, b, c]⟩ : Shape).Idx → α)
    (h : (⟨3, ![a, b, c]⟩ : Shape).ShapeCasts ⟨2, ![a, R]⟩) (i : Fin a) (r : Fin R) (j : Fin b) (k : Fin c)
    (hr : r.val = j.val * c + k.val) :
    shapeCast ⟨2, ![a, R]⟩ x h (ix2 i r) = x (ix3 i j k) :=
  shapeCast_apply x h _ _ (by
    rw [Shape.rowMajor_val_two, Shape.rowMajor_val_three]
    show (i.val * b + j.val) * c + k.val = i.val * R + r.val
    rw [hr, hR]; ring)

/-- An [a, b·c] matrix with its trailing axis split, [a, b, c], reads, at (i, j, k), the matrix at (i, j·c + k). -/
theorem cast_aR_abc_apply {a b c R : ℕ} (hR : R = b * c) (x : (⟨2, ![a, R]⟩ : Shape).Idx → α)
    (h : (⟨2, ![a, R]⟩ : Shape).ShapeCasts ⟨3, ![a, b, c]⟩) (i : Fin a) (j : Fin b) (k : Fin c) (r : Fin R)
    (hr : r.val = j.val * c + k.val) :
    shapeCast ⟨3, ![a, b, c]⟩ x h (ix3 i j k) = x (ix2 i r) :=
  shapeCast_apply x h _ _ (by
    rw [Shape.rowMajor_val_two, Shape.rowMajor_val_three]
    show i.val * R + r.val = (i.val * b + j.val) * c + k.val
    rw [hr, hR]; ring)

end Cert.PairNet.Layout

end
-- ==== Proof.QuatSpec.lean ====
/-
  The quaternion linear layer, as two functions of its three argument arrays.

  An input row `x[b]` is 256 quaternions, the four components of quaternion `i` at `x[b, i, 0..3]`; a weight row `w[o]` is 256
  quaternions likewise; the layer's output quaternion `(b, o)` is the sum over `i` of the Hamilton products `w[o, i] ⊗ x[b, i]`,
  plus the bias quaternion `bias[o]`.

  * `refVal` spells component `c` of that output as four plain real-matrix products `D cx cw = Σ_i x[b, i, cx] · w[o, i, cw]`
    combined with the Hamilton product's signs (`comb`).
  * `kerVal` spells it as ONE product of the row `x[b]` read flat (1024 numbers, place `4 i + ci`) with column `4 o + c` of a
    1024 × 1024 matrix whose entry at row `4 i + ci` is `± w[o, i, c xor ci]` (`hamAt`): the sign table `neg` and the
    component table `cmp` are the Hamilton product's multiplication table read by output component `c` and input component `ci`.
-/
import Idealize.ShloMosaic.PureOps.Ideal
import Idealize.ShloMosaic.Lib.ValueIdx

noncomputable section

open scoped BigOperators

namespace Cert.Quat

open Idealize.ShloMosaic Idealize.ShloMosaic.ValueIdx

/-- The input's shape: 32768 rows of 256 quaternions. -/
abbrev SX : Shape := ⟨3, ![32768, 256, 4]⟩
/-- The weight's shape: 256 output rows of 256 quaternions. -/
abbrev SW : Shape := ⟨3, ![256, 256, 4]⟩
/-- The bias's shape: 256 quaternions. -/
abbrev SB : Shape := ⟨2, ![256, 4]⟩

/-- The quaternion a flat place `k = 4 i + ci` belongs to. -/
def hi (k : Fin 1024) : Fin 256 := ⟨k.val / 4, by have := k.isLt; omega⟩
/-- The component a flat place `k = 4 i + ci` holds. -/
def lo (k : Fin 1024) : Fin 4 := ⟨k.val % 4, by omega⟩
/-- The flat place of component `c` of quaternion `o`. -/
def join (o : Fin 256) (c : Fin 4) : Fin 1024 := ⟨o.val * 4 + c.val, by have := o.isLt; have := c.isLt; omega⟩

theorem hi_join (o : Fin 256) (c : Fin 4) : hi (join o c) = o := by
  apply Fin.ext; show (o.val * 4 + c.val) / 4 = o.val; have := c.isLt; omega
theorem lo_join (o : Fin 256) (c : Fin 4) : lo (join o c) = c := by
  apply Fin.ext; show (o.val * 4 + c.val) % 4 = c.val; have := c.isLt; omega
theorem join_hi_lo (k : Fin 1024) : join (hi k) (lo k) = k := by
  apply Fin.ext; show k.val / 4 * 4 + k.val % 4 = k.val; omega

/-- Whether the term of output component `c` that takes input component `ci` enters with a minus sign. -/
def neg : Fin 4 → Fin 4 → Bool :=
  ![![false, true, true, true], ![false, false, true, false], ![false, false, false, true], ![false, true, false, false]]
/-- Which weight component multiplies input component `ci` in output component `c`. -/
def cmp : Fin 4 → Fin 4 → Fin 4 :=
  ![![0, 1, 2, 3], ![1, 0, 3, 2], ![2, 3, 0, 1], ![3, 2, 1, 0]]

/-- The sign as the number the program multiplies by: the f32 words of `-1.0` and `1.0`. -/
def sgn (c ci : Fin 4) : EReal :=
  if neg c ci then Ideal.ofBits .f32 0xBF800000#32 else Ideal.ofBits .f32 0x3F800000#32

/-- The entry of the 1024 × 1024 matrix at row `k = 4 i + ci` and column `4 o + c`: `± w[o, i, cmp c ci]`. -/
def hamAt (w : SW.Idx → EReal) (k : Fin 1024) (o : Fin 256) (c : Fin 4) : EReal :=
  sgn c (lo k) * w (ix3 o (hi k) (cmp c (lo k)))

/-- The layer as one flat product: row `b` of the input read flat against column `(o, c)` of the matrix, plus the bias. -/
def kerVal (x : SX.Idx → EReal) (w : SW.Idx → EReal) (bias : SB.Idx → EReal) : SX.Idx → EReal := fun j =>
  (∑ k : Fin 1024, x (ix3 (j 0) (hi k) (lo k)) * hamAt w k (j 1) (j 2)) + bias (ix2 (j 1) (j 2))

/-- One real-matrix product of a component plane of the input with a component plane of the weight. -/
def D (x : SX.Idx → EReal) (w : SW.Idx → EReal) (b : Fin 32768) (o : Fin 256) (cx cw : Fin 4) : EReal :=
  ∑ i : Fin 256, x (ix3 b i cx) * w (ix3 o i cw)

/-- The Hamilton product's four components from the sixteen plane products `d cx cw`, in the order the sums are taken. -/
def comb (d : Fin 4 → Fin 4 → EReal) : Fin 4 → EReal :=
  ![((d 0 0 - d 1 1) - d 2 2) - d 3 3,
    ((d 1 0 + d 0 1) + d 3 2) - d 2 3,
    ((d 2 0 - d 3 1) + d 0 2) + d 1 3,
    ((d 3 0 + d 2 1) - d 1 2) + d 0 3]

/-- The layer as sixteen plane products combined, plus the bias. -/
def refVal (x : SX.Idx → EReal) (w : SW.Idx → EReal) (bias : SB.Idx → EReal) : SX.Idx → EReal := fun j =>
  comb (D x w (j 0) (j 1)) (j 2) + bias (ix2 (j 1) (j 2))

end Cert.Quat

end
-- ==== Proof.KernelValue.lean ====
/-
  What the idealized program's result array holds after the run, as one function of the three argument arrays.

  At a grid point the body's one store writes, at place `(p, q)` of the output block, row `p` of the input block against
  column `q` of the matrix plus entry `q` of the bias row (`pay_apply`: the matrix unit's product into a zero accumulator is a
  plain sum of products at the ideal reading, a change of float format is the identity, the bias row is repeated down the
  rows). Point `t`'s input block is rows `2048 t …` of the flattened input and its output block the same rows of the
  result, the matrix and the bias row being taken whole at every point; so what point `t` writes back is block `t` of ONE
  whole-array function `outFlat`, the sixteen blocks cover the array, and the array ends at `outFlat`. The last host
  operation splits the result's trailing axis 1024 = 256 · 4.
-/
import proofs.«149754_j7189775253858_1_alg».proof.Proof.FrameRunIdeal
import proofs.«149754_j7189775253858_1_alg».proof.Proof.LibMatmulRows
import proofs.«149754_j7189775253858_1_alg».proof.Proof.LibTrailingAxes
import proofs.«149754_j7189775253858_1_alg».proof.Proof.QuatSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.KernelValue

open Cert.KernelIdeal Cert.KernelIdeal.Gen Cert.KernelIdeal.FrameRun
open Idealize.ShloMosaic Idealize.ShloMosaic.TcCoe Idealize.SL.Sem Idealize.ShloMosaic.ValueIdx
open Idealize.ShloMosaic.Pipeline (Dat)

/-! ## The body's arithmetic at an index -/

/-- Entry `(p, q)` of the output block: row `p` of the input block against column `q` of the matrix, plus entry `q` of the bias row. -/
theorem pay_apply (x0 : Vec Ideal S2048x1024 .f32) (x1 : Vec Ideal S1024x1024 .bf16) (x2 : Vec Ideal S1x1024 .f32)
    (p : Fin 2048) (q : Fin 1024) :
    k0_pay1 (F := Ideal) x0 x1 x2 (ix2 p q) = (∑ k : Fin 1024, x0 (ix2 p k) * x1 (ix2 k q)) + x2 (ix2 (0 : Fin 1) q) := by
  unfold k0_pay1
  rw [addf_apply, shapeCast_self, shapeCast_self, shapeCast_self]
  refine congrArg₂ (· + ·) ?_ ?_
  · exact Cert.RefSide.matmul_rows_cols_apply (m := 2048) (k := 1024) (n := 1024) dot_S2048x1024_S1024x1024_S2048x1024_1_0_0_1_n_n_wf none
      (truncf FTy.bf16 x0 bitsLt_bf16_f32) x1 p q
  · exact Cert.RefSide.broadcast_row_apply (m := 2048) (n := 1024) x2 broadcasts_S1x1024_S2048x1024 p q

/-! ## The region's output array -/

variable (m : (ℓ : Loc nD τ sig) → Buf (Elt Ideal) ℓ) (ρ : Dev nD → PrngReg)

theorem hz : (![0, 0] : Fin 2 → Nat) = fun _ => 0 := funext fun a => by fin_cases a <;> rfl

/-- The region's output as one function of the three arrays it is entered with: row `i 0` of the flattened input against
    column `i 1` of the matrix, plus entry `i 1` of the bias row. -/
def outFlat (X : Vec Ideal S32768x1024 .f32) (M : Vec Ideal S1024x1024 .bf16) (Bv : Vec Ideal S1x1024 .f32) : Vec Ideal S32768x1024 .f32 :=
  fun i => (∑ k : Fin 1024, X (ix2 (i 0) k) * M (ix2 k (i 1))) + Bv (ix2 (0 : Fin 1) (i 1))

/-- The printed index maps over the grid: the input's block moves with the output's along the rows, the matrix and the bias
    row stay at block zero, and the output's row block stays in range. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0
    ∧ win0_3.index t (0 : Fin 2) ≤ 15 :=
  (by decide +kernel : ∀ t : Fin grid0.N, _)

/-- Every row block of the result is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- At any point, the body's arithmetic of the three windows' blocks of any three arrays is the output window's block of
    `outFlat` of those arrays: the input's block is the output block's rows, the matrix and the bias row are whole. -/
theorem block_eq (X : Vec Ideal S32768x1024 .f32) (M : Vec Ideal S1024x1024 .bf16) (Bv : Vec Ideal S1x1024 .f32) (t : Fin cfg0.N) :
    k0_pay1 (F := Ideal) (((cfg0.win 0).blk t).view.read (Elt Ideal) X) (((cfg0.win 1).blk t).view.read (Elt Ideal) M)
        (((cfg0.win 2).blk t).view.read (Elt Ideal) Bv)
      = ((cfg0.win 3).blk t).view.read (Elt Ideal) (outFlat X M Bv) := by
  obtain ⟨e0, e1, e2, e3, e4, e5, e6, e7⟩ := idx_facts t
  funext j
  obtain ⟨p, q, rfl⟩ : ∃ (p : Fin 2048) (q : Fin 1024), j = ix2 p q := ⟨j 0, j 1, eq_ix2 j⟩
  refine (pay_apply _ _ _ p q).trans ?_
  show _ = outFlat X M Bv (((cfg0.win 3).blk t).view.emb (ix2 p q))
  unfold outFlat
  have hx : ∀ k : Fin 1024, ((cfg0.win 0).blk t).view.read (Elt Ideal) X (ix2 p k)
      = X (ix2 ((((cfg0.win 3).blk t).view.emb (ix2 p q)) 0) k) := fun k => by
    show X (((cfg0.win 0).blk t).view.emb (ix2 p k)) = _
    refine congrArg X (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * k.val = k.val; omega
  have hm : ∀ k : Fin 1024, ((cfg0.win 1).blk t).view.read (Elt Ideal) M (ix2 k q)
      = M (ix2 k ((((cfg0.win 3).blk t).view.emb (ix2 p q)) 1)) := fun k => by
    show M (((cfg0.win 1).blk t).view.emb (ix2 k q)) = _
    refine congrArg M (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  have hb : ((cfg0.win 2).blk t).view.read (Elt Ideal) Bv (ix2 (0 : Fin 1) q)
      = Bv (ix2 (0 : Fin 1) ((((cfg0.win 3).blk t).view.emb (ix2 p q)) 1)) := by
    show Bv (((cfg0.win 2).blk t).view.emb (ix2 (0 : Fin 1) q)) = _
    refine congrArg Bv (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hb]
  refine congrArg₂ (· + ·) (Finset.sum_congr rfl fun k _ => ?_) rfl
  rw [hx, hm]

/-- What point `t` writes back is block `t` of `outFlat` of the arrays as the region finds them. -/
theorem flushed_eq (c : Dev nD) (t : Fin cfg0.N) :
    (dats m 0 c).flushed 3 t = ((cfg0.win 3).blk t).view.read (Elt Ideal)
      (outFlat (V m c main_v84) (V m c main_v82) (V m c main_v83)) := by
  show (cfg0.win 3).cut (grid0.coords t) ((dats m 0 c).after 3 t) = _
  rw [after0_3]
  unfold blockOut
  rw [View.canon_unit_zero hz]
  simp only [View.ld_unit_zero (S := S2048x1024) hz, View.ld_unit_zero (S := S1024x1024) hz, View.ld_unit_zero (S := S1x1024) hz]
  exact block_eq (V m c main_v84) (V m c main_v82) (V m c main_v83) t
/-- An index of the result is in point `t`'s block iff each coordinate is in the block's range on its axis. -/
theorem mem_blk (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v85).slice (win0_3.rect t)).set ↔ _
  rw [View.set_slice_whole, Rect.mem_set_unit]
  exact Iff.rfl

/-- Every index of the result is in the block of the point that takes its row: row `r` is in block `r / 2048`. -/
theorem cover (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The region's output array after the run. -/
theorem final (c : Dev nD) :
    (dats m 0 c).arrAt 3 cfg0.N = outFlat (V m c main_v84) (V m c main_v82) (V m c main_v83) :=
  (dats m 0 c).arrAt_eq_of_cover 3 _ (fun t _ => flushed_eq m c t) cover

/-! ## The last host operation -/

/-- The program's result: the region's output with its trailing axis split. -/
theorem result_eq (c : Dev nD) :
    Pipeline.afterTail₀ cfgs (dats m) 0 (V0 m) [hostOps1] c main_v86
      = shapeCast S32768x256x4 (outFlat (V m c main_v84) (V m c main_v82) (V m c main_v83)) shapeCasts_S32768x1024_S32768x256x4 := by
  unfold Pipeline.afterTail₀
  show StableHlo.after hostOps1 _ (Proc.devRef .tc main_v86) = _
  after_results
  rw [show Pipeline.withArrays (cfgs 0).spec c (V0 m c) (fun w => (dats m 0 c).arrAt w (cfgs 0).N) (Proc.devRef .tc main_v85)
      = outFlat (V m c main_v84) (V m c main_v82) (V m c main_v83)
    from (Pipeline.withArrays_arr spec0 launch0.win.arr_inj c _ _ 3).trans (final m c)]
  rfl

/-- The run of the idealized program with its result named: the region's output with its trailing axis split, of the three
    arrays the region is entered with; the argument arrays as launched. -/
theorem run_flat : θ_run defs (onTc (τ := τ) (main (F := Ideal))) ⟨m, fun _ => 0, ρ⟩ fun r => ∀ c : Dev nD,
      r.2.mem ((c.tc : Thread nD τ).loc main_v86)
        = shapeCast S32768x256x4 (outFlat (V m c main_v84) (V m c main_v82) (V m c main_v83)) shapeCasts_S32768x1024_S32768x256x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v86 (Pipeline.mem_restRefs_of main_v86 (by decide) (by decide))).trans (result_eq m c),
     ((h c).2 main_arg0 (Pipeline.mem_restRefs_of main_arg0 (by decide) (by decide))).trans (W_arg m main_arg0 (.inl rfl) (dats m) c),
     ((h c).2 main_arg1 (Pipeline.mem_restRefs_of main_arg1 (by decide) (by decide))).trans (W_arg m main_arg1 (.inr (.inl rfl)) (dats m) c),
     ((h c).2 main_arg2 (Pipeline.mem_restRefs_of main_arg2 (by decide) (by decide))).trans (W_arg m main_arg2 (.inr (.inr rfl)) (dats m) c)⟩)
    (run_main m ρ)

/-! ## From the flat product to the layer -/

open Cert.Quat in
/-- When the three arrays the region is entered with are the flattened input, the matrix of signed weight components and
    the flattened bias, the region's output with its trailing axis split is the layer as one flat product. -/
theorem kerVal_of (X : Vec Ideal S32768x1024 .f32) (M : Vec Ideal S1024x1024 .bf16) (Bv : Vec Ideal S1x1024 .f32)
    (x : SX.Idx → EReal) (w : SW.Idx → EReal) (bias : SB.Idx → EReal)
    (hX : ∀ (b : Fin 32768) (k : Fin 1024), X (ix2 b k) = x (ix3 b (hi k) (lo k)))
    (hM : ∀ k n : Fin 1024, M (ix2 k n) = hamAt w k (hi n) (lo n))
    (hB : ∀ n : Fin 1024, Bv (ix2 (0 : Fin 1) n) = bias (ix2 (hi n) (lo n))) :
    shapeCast S32768x256x4 (outFlat X M Bv) shapeCasts_S32768x1024_S32768x256x4 = kerVal x w bias := by
  funext j
  obtain ⟨b, o, c, rfl⟩ : ∃ (b : Fin 32768) (o : Fin 256) (c : Fin 4), j = ix3 b o c := ⟨j 0, j 1, j 2, eq_ix3 j⟩
  rw [Cert.PairNet.Layout.cast_aR_abc_apply (a := 32768) (b := 256) (c := 4) (R := 1024) rfl (outFlat X M Bv)
    shapeCasts_S32768x1024_S32768x256x4 b o c (join o c) rfl]
  show (∑ k : Fin 1024, X (ix2 b k) * M (ix2 k (join o c))) + Bv (ix2 (0 : Fin 1) (join o c))
    = (∑ k : Fin 1024, x (ix3 b (hi k) (lo k)) * hamAt w k o c) + bias (ix2 o c)
  rw [hB, hi_join, lo_join]
  refine congrArg₂ (· + ·) (Finset.sum_congr rfl fun k _ => ?_) rfl
  rw [hX, hM, hi_join, lo_join]

end Cert.KernelIdeal.KernelValue

end
-- ==== Proof.HamMatrix.lean ====
/-
  The three arrays the kernel's region is entered with, read at an index.

  Before its region the program builds, from the weight `w : [256, 256, 4]`, a 1024 × 1024 matrix: each of the four
  component planes of `w` is transposed and multiplied by a constant `1.0` or `-1.0`; sixteen such signed planes are
  laid side by side, four to a stack `[256, 256, 4]`, the four stacks interleaved along a new axis into
  `[256, 4, 256, 4]`, and that array is read flat as `[1024, 1024]`. Its entry at row `4 i + ci`, column `4 o + c`
  is `± w[o, i, cmp c ci]` with the sign `neg c ci`: the Hamilton product's table (`Cert.Quat.hamAt`).
  The bias `[256, 4]` is read flat as one row `[1, 1024]` and the input `[32768, 256, 4]` as `[32768, 1024]`.
-/
import proofs.«149754_j7189775253858_1_alg».proof.Proof.Gen.KernelIdeal.Launch
import proofs.«149754_j7189775253858_1_alg».proof.Proof.QuatSpec
import proofs.«149754_j7189775253858_1_alg».proof.Proof.LibTrailingAxes
import Idealize.ShloMosaic.Lib.StableHlo.Run

noncomputable section

namespace Cert.KernelIdeal.HamMatrix

open Cert.KernelIdeal Cert.KernelIdeal.Gen Idealize.ShloMosaic Idealize.ShloMosaic.ValueIdx Idealize.ShloMosaic.StableHlo

/-- Core `c`'s TensorCore buffers when the region is entered: the launch contents after the host operations. -/
abbrev V0 (m : (ℓ : Loc nD τ sig) → Buf (Elt Ideal) ℓ) (c : Dev nD) : Valuation τ sig (Elt Ideal) :=
  StableHlo.after (List.flatten [hostOps0]) (fun b => m (c, b))

/-! ## The bias and the input: one reshape each -/

set_option maxRecDepth 8192 in
set_option maxHeartbeats 4000000 in
/-- The bias row the region reads is the bias read flat. -/
theorem v83_eq (m : (ℓ : Loc nD τ sig) → Buf (Elt Ideal) ℓ) (c : Dev nD) :
    (V0 m c (Proc.devRef .tc main_v83) : S1x1024.Idx → EReal)
      = shapeCast S1x1024 (m ((c.tc : Thread nD τ).loc main_arg2) : S256x4.Idx → EReal) shapeCasts_S256x4_S1x1024 := by
  show StableHlo.after hostOps0 (fun b => m (c, b)) (Proc.devRef .tc main_v83) = _
  after_results_simp
  rfl

set_option maxRecDepth 8192 in
set_option maxHeartbeats 4000000 in
/-- The input the region reads is the input with its two trailing axes merged. -/
theorem v84_eq (m : (ℓ : Loc nD τ sig) → Buf (Elt Ideal) ℓ) (c : Dev nD) :
    (V0 m c (Proc.devRef .tc main_v84) : S32768x1024.Idx → EReal)
      = shapeCast S32768x1024 (m ((c.tc : Thread nD τ).loc main_arg0) : S32768x256x4.Idx → EReal) shapeCasts_S32768x256x4_S32768x1024 := by
  show StableHlo.after hostOps0 (fun b => m (c, b)) (Proc.devRef .tc main_v84) = _
  after_results_simp
  rfl

theorem v83_apply (m : (ℓ : Loc nD τ sig) → Buf (Elt Ideal) ℓ) (c : Dev nD) (n : Fin 1024) :
    (V0 m c (Proc.devRef .tc main_v83) : S1x1024.Idx → EReal) (ix2 (0 : Fin 1) n)
      = m ((c.tc : Thread nD τ).loc main_arg2) (ix2 (Cert.Quat.hi n) (Cert.Quat.lo n)) := by
  rw [v83_eq]
  refine shapeCast_apply (s := S256x4) (t := S1x1024) _ _ _ _ ?_
  rw [Shape.rowMajor_val_two, Shape.rowMajor_val_two]
  show (n.val / 4) * 4 + n.val % 4 = 0 * 1024 + n.val
  omega

theorem v84_apply (m : (ℓ : Loc nD τ sig) → Buf (Elt Ideal) ℓ) (c : Dev nD) (b : Fin 32768) (k : Fin 1024) :
    (V0 m c (Proc.devRef .tc main_v84) : S32768x1024.Idx → EReal) (ix2 b k)
      = m ((c.tc : Thread nD τ).loc main_arg0) (ix3 b (Cert.Quat.hi k) (Cert.Quat.lo k)) := by
  rw [v84_eq]
  exact Cert.PairNet.Layout.cast_abc_aR_apply (a := 32768) (b := 256) (c := 4) (R := 1024) rfl _ _ b k (Cert.Quat.hi k) (Cert.Quat.lo k)
    (by show k.val = k.val / 4 * 4 + k.val % 4; omega)

/-! ## The matrix as a function of the weight, stage by stage -/

/-- The f32 word of `1.0`. -/
abbrev wPos : BitVec 32 := 0x3F800000#32
/-- The f32 word of `-1.0`. -/
abbrev wNeg : BitVec 32 := 0xBF800000#32

/-- Component plane 0 of the weight, as a matrix: `w[o, i, 0]` at `(o, i)`. -/
def pl0 (w : S256x256x4.Idx → EReal) : S256x256.Idx → EReal :=
  shapeCast S256x256 (extractStridedSlice S256x256x1 ![0, 0, 0] w slices_S256x256x4_S256x256x1_0_0_0) shapeCasts_S256x256x1_S256x256
/-- Component plane 1 of the weight. -/
def pl1 (w : S256x256x4.Idx → EReal) : S256x256.Idx → EReal :=
  shapeCast S256x256 (extractStridedSlice S256x256x1 ![0, 0, 1] w slices_S256x256x4_S256x256x1_0_0_1) shapeCasts_S256x256x1_S256x256
/-- Component plane 2 of the weight. -/
def pl2 (w : S256x256x4.Idx → EReal) : S256x256.Idx → EReal :=
  shapeCast S256x256 (extractStridedSlice S256x256x1 ![0, 0, 2] w slices_S256x256x4_S256x256x1_0_0_2) shapeCasts_S256x256x1_S256x256
/-- Component plane 3 of the weight. -/
def pl3 (w : S256x256x4.Idx → EReal) : S256x256.Idx → EReal :=
  shapeCast S256x256 (extractStridedSlice S256x256x1 ![0, 0, 3] w slices_S256x256x4_S256x256x1_0_0_3) shapeCasts_S256x256x1_S256x256

/-- A plane transposed, multiplied by the constant of word `s`, and given a trailing unit axis. -/
def col (s : BitVec 32) (p : S256x256.Idx → EReal) : S256x256x1.Idx → EReal :=
  broadcastInDim S256x256x1 ![0, 1] bcast_S256x256_S256x256x1_0_1
    (mulf (F := Ideal) (φ := .f32) (broadcastInDim S256x256 ![] bcast_S_S256x256 (constant (F := Ideal) S_ .f32 s))
      (transpose S256x256 [1, 0] p transposes_S256x256_S256x256_1_0))

/-- Four columns side by side along the last axis. -/
def stack (c0 c1 c2 c3 : S256x256x1.Idx → EReal) : S256x256x4.Idx → EReal :=
  concatenate S256x256x4 2 [⟨S256x256x1, c0⟩, ⟨S256x256x1, c1⟩, ⟨S256x256x1, c2⟩, ⟨S256x256x1, c3⟩]
    concatenates_S256x256x1_S256x256x1_S256x256x1_S256x256x1_S256x256x4_d2

/-- A stack given a unit axis in second place. -/
def lift (x : S256x256x4.Idx → EReal) : S256x1x256x4.Idx → EReal :=
  broadcastInDim S256x1x256x4 ![0, 2, 3] bcast_S256x256x4_S256x1x256x4_0_2_3 x

/-- Four lifted stacks interleaved along the second axis. -/
def inter (y0 y1 y2 y3 : S256x1x256x4.Idx → EReal) : S256x4x256x4.Idx → EReal :=
  concatenate S256x4x256x4 1 [⟨S256x1x256x4, y0⟩, ⟨S256x1x256x4, y1⟩, ⟨S256x1x256x4, y2⟩, ⟨S256x1x256x4, y3⟩]
    concatenates_S256x1x256x4_S256x1x256x4_S256x1x256x4_S256x1x256x4_S256x4x256x4_d1

/-- The four stacks, one per input component, in the program's order of planes and signs. -/
def st0 (w : S256x256x4.Idx → EReal) : S256x256x4.Idx → EReal :=
  stack (col wPos (pl0 w)) (col wPos (pl1 w)) (col wPos (pl2 w)) (col wPos (pl3 w))
def st1 (w : S256x256x4.Idx → EReal) : S256x256x4.Idx → EReal :=
  stack (col wNeg (pl1 w)) (col wPos (pl0 w)) (col wPos (pl3 w)) (col wNeg (pl2 w))
def st2 (w : S256x256x4.Idx → EReal) : S256x256x4.Idx → EReal :=
  stack (col wNeg (pl2 w)) (col wNeg (pl3 w)) (col wPos (pl0 w)) (col wPos (pl1 w))
def st3 (w : S256x256x4.Idx → EReal) : S256x256x4.Idx → EReal :=
  stack (col wNeg (pl3 w)) (col wPos (pl2 w)) (col wNeg (pl1 w)) (col wPos (pl0 w))

/-- The 1024 × 1024 matrix the program builds from the weight. -/
def mflat (w : S256x256x4.Idx → EReal) : S1024x1024.Idx → EReal :=
  truncf (F := Ideal) (φ := .f32) .bf16
    (shapeCast S1024x1024 (inter (lift (st0 w)) (lift (st1 w)) (lift (st2 w)) (lift (st3 w))) shapeCasts_S256x4x256x4_S1024x1024)
    bitsLt_bf16_f32

set_option maxRecDepth 8192 in
set_option maxHeartbeats 8000000 in
/-- The matrix the region reads is the staged function of the weight. -/
theorem v82_eq (m : (ℓ : Loc nD τ sig) → Buf (Elt Ideal) ℓ) (c : Dev nD) :
    (V0 m c (Proc.devRef .tc main_v82) : S1024x1024.Idx → EReal) = mflat (m ((c.tc : Thread nD τ).loc main_arg1)) := by
  show StableHlo.after hostOps0 (fun b => m (c, b)) (Proc.devRef .tc main_v82) = _
  after_results_simp
  rfl

/-! ## Each stage read at an index -/

/-- A plane of the weight read at `(o, i)`: the slice at offset `p` on the last axis, its unit axis dropped. -/
theorem plane_apply (w : S256x256x4.Idx → EReal) (p : Fin 4) (h : S256x256x4.Slices ![0, 0, p.val] S256x256x1) (o i : Fin 256) :
    shapeCast S256x256 (extractStridedSlice S256x256x1 ![0, 0, p.val] w h) shapeCasts_S256x256x1_S256x256 (ix2 o i)
      = w (ix3 o i p) := by
  refine (shapeCast_apply (s := S256x256x1) (t := S256x256) _ _ (ix2 o i) (ix3 o i (0 : Fin 1)) ?_).trans ?_
  · rw [Shape.rowMajor_val_three, Shape.rowMajor_val_two]
    show (o.val * 256 + i.val) * 1 + 0 = o.val * 256 + i.val
    omega
  · refine extractStridedSlice_apply (s := S256x256x4) (t := S256x256x1) _ w h (ix3 o i (0 : Fin 1)) (ix3 o i p) (fun a => ?_)
    match a with
    | ⟨0, _⟩ => show o.val = 0 + o.val; omega
    | ⟨1, _⟩ => show i.val = 0 + i.val; omega
    | ⟨2, _⟩ => show p.val = p.val + 0; omega

theorem pl0_apply (w : S256x256x4.Idx → EReal) (o i : Fin 256) : pl0 w (ix2 o i) = w (ix3 o i (0 : Fin 4)) :=
  plane_apply w 0 slices_S256x256x4_S256x256x1_0_0_0 o i
theorem pl1_apply (w : S256x256x4.Idx → EReal) (o i : Fin 256) : pl1 w (ix2 o i) = w (ix3 o i (1 : Fin 4)) :=
  plane_apply w 1 slices_S256x256x4_S256x256x1_0_0_1 o i
theorem pl2_apply (w : S256x256x4.Idx → EReal) (o i : Fin 256) : pl2 w (ix2 o i) = w (ix3 o i (2 : Fin 4)) :=
  plane_apply w 2 slices_S256x256x4_S256x256x1_0_0_2 o i
theorem pl3_apply (w : S256x256x4.Idx → EReal) (o i : Fin 256) : pl3 w (ix2 o i) = w (ix3 o i (3 : Fin 4)) :=
  plane_apply w 3 slices_S256x256x4_S256x256x1_0_0_3 o i

/-- A signed transposed plane read at `(i, o, 0)`: the constant times the plane at `(o, i)`. -/
theorem col_apply (s : BitVec 32) (p : S256x256.Idx → EReal) (i o : Fin 256) (u : Fin 1) :
    col s p (ix3 i o u) = Ideal.ofBits .f32 s * p (ix2 o i) := by
  unfold col
  refine (broadcastInDim_apply (s := S256x256) (t := S256x256x1) _ _ _ (ix3 i o u) (ix2 i o) (fun a => ?_)).trans ?_
  · match a with
    | ⟨0, _⟩ => rfl
    | ⟨1, _⟩ => rfl
  · have h1 : broadcastInDim S256x256 ![] bcast_S_S256x256 (constant (F := Ideal) S_ .f32 s) (ix2 i o) = Ideal.ofBits .f32 s :=
      (broadcastInDim_apply (s := S_) (t := S256x256) _ _ _ (ix2 i o) ix0 (fun a => a.elim0)).trans (constant_apply _ _)
    have h2 : transpose S256x256 [1, 0] p transposes_S256x256_S256x256_1_0 (ix2 i o) = p (ix2 o i) :=
      transpose_apply (s := S256x256) (t := S256x256) _ p _ (ix2 i o) (ix2 o i) (fun b =>
        match b with
        | ⟨0, _⟩ => rfl
        | ⟨1, _⟩ => rfl)
    rw [mulf_apply, h1, h2]

/-- Four columns side by side, read at `(i, o, d)`: column `d` at `(i, o, 0)`. -/
theorem stack_apply (c0 c1 c2 c3 : S256x256x1.Idx → EReal) (i o : Fin 256) :
    ∀ d : Fin 4, stack c0 c1 c2 c3 (ix3 i o d) = (![c0, c1, c2, c3] d) (ix3 i o (0 : Fin 1))
  | ⟨0, _⟩ => concatenate_apply_piece (t := S256x256x4) 2 _ _ _ 0 (by show (0 : ℕ) < 4; omega) S256x256x1 c0 rfl rfl 0 rfl (ix3 i o (0 : Fin 1))
      (fun b hb => match b, hb with | ⟨0, _⟩, _ => rfl | ⟨1, _⟩, _ => rfl | ⟨2, _⟩, hb => absurd rfl hb) rfl
  | ⟨1, _⟩ => concatenate_apply_piece (t := S256x256x4) 2 _ _ _ 1 (by show (1 : ℕ) < 4; omega) S256x256x1 c1 rfl rfl 1 rfl (ix3 i o (0 : Fin 1))
      (fun b hb => match b, hb with | ⟨0, _⟩, _ => rfl | ⟨1, _⟩, _ => rfl | ⟨2, _⟩, hb => absurd rfl hb) rfl
  | ⟨2, _⟩ => concatenate_apply_piece (t := S256x256x4) 2 _ _ _ 2 (by show (2 : ℕ) < 4; omega) S256x256x1 c2 rfl rfl 2 rfl (ix3 i o (0 : Fin 1))
      (fun b hb => match b, hb with | ⟨0, _⟩, _ => rfl | ⟨1, _⟩, _ => rfl | ⟨2, _⟩, hb => absurd rfl hb) rfl
  | ⟨3, _⟩ => concatenate_apply_piece (t := S256x256x4) 2 _ _ _ 3 (by show (3 : ℕ) < 4; omega) S256x256x1 c3 rfl rfl 3 rfl (ix3 i o (0 : Fin 1))
      (fun b hb => match b, hb with | ⟨0, _⟩, _ => rfl | ⟨1, _⟩, _ => rfl | ⟨2, _⟩, hb => absurd rfl hb) rfl

/-- A lifted stack read at `(a, 0, c, d)`: the stack at `(a, c, d)`. -/
theorem lift_apply (x : S256x256x4.Idx → EReal) (a : Fin 256) (u : Fin 1) (c : Fin 256) (d : Fin 4) :
    lift x (ix4 a u c d) = x (ix3 a c d) := by
  unfold lift
  refine broadcastInDim_apply (s := S256x256x4) (t := S256x1x256x4) _ _ x (ix4 a u c d) (ix3 a c d) (fun ax => ?_)
  match ax with
  | ⟨0, _⟩ => rfl
  | ⟨1, _⟩ => rfl
  | ⟨2, _⟩ => rfl

/-- Four lifted stacks interleaved, read at `(a, b, c, d)`: stack `b` at `(a, 0, c, d)`. -/
theorem inter_apply (y0 y1 y2 y3 : S256x1x256x4.Idx → EReal) (a : Fin 256) (c : Fin 256) (d : Fin 4) :
    ∀ b : Fin 4, inter y0 y1 y2 y3 (ix4 a b c d) = (![y0, y1, y2, y3] b) (ix4 a (0 : Fin 1) c d)
  | ⟨0, _⟩ => concatenate_apply_piece (t := S256x4x256x4) 1 _ _ _ 0 (by show (0 : ℕ) < 4; omega) S256x1x256x4 y0 rfl rfl 0 rfl (ix4 a (0 : Fin 1) c d)
      (fun e he => match e, he with | ⟨0, _⟩, _ => rfl | ⟨1, _⟩, he => absurd rfl he | ⟨2, _⟩, _ => rfl | ⟨3, _⟩, _ => rfl) rfl
  | ⟨1, _⟩ => concatenate_apply_piece (t := S256x4x256x4) 1 _ _ _ 1 (by show (1 : ℕ) < 4; omega) S256x1x256x4 y1 rfl rfl 1 rfl (ix4 a (0 : Fin 1) c d)
      (fun e he => match e, he with | ⟨0, _⟩, _ => rfl | ⟨1, _⟩, he => absurd rfl he | ⟨2, _⟩, _ => rfl | ⟨3, _⟩, _ => rfl) rfl
  | ⟨2, _⟩ => concatenate_apply_piece (t := S256x4x256x4) 1 _ _ _ 2 (by show (2 : ℕ) < 4; omega) S256x1x256x4 y2 rfl rfl 2 rfl (ix4 a (0 : Fin 1) c d)
      (fun e he => match e, he with | ⟨0, _⟩, _ => rfl | ⟨1, _⟩, he => absurd rfl he | ⟨2, _⟩, _ => rfl | ⟨3, _⟩, _ => rfl) rfl
  | ⟨3, _⟩ => concatenate_apply_piece (t := S256x4x256x4) 1 _ _ _ 3 (by show (3 : ℕ) < 4; omega) S256x1x256x4 y3 rfl rfl 3 rfl (ix4 a (0 : Fin 1) c d)
      (fun e he => match e, he with | ⟨0, _⟩, _ => rfl | ⟨1, _⟩, he => absurd rfl he | ⟨2, _⟩, _ => rfl | ⟨3, _⟩, _ => rfl) rfl

/-- The interleaved array read flat: row `k` is `(k / 4, k % 4)`, column `n` is `(n / 4, n % 4)`. -/
theorem flat_apply (z : S256x4x256x4.Idx → EReal) (k n : Fin 1024) :
    shapeCast S1024x1024 z shapeCasts_S256x4x256x4_S1024x1024 (ix2 k n)
      = z (ix4 (Cert.Quat.hi k) (Cert.Quat.lo k) (Cert.Quat.hi n) (Cert.Quat.lo n)) := by
  refine shapeCast_apply (s := S256x4x256x4) (t := S1024x1024) z _ (ix2 k n) _ ?_
  rw [Shape.rowMajor_val_four, Shape.rowMajor_val_two]
  show ((k.val / 4 * 4 + k.val % 4) * 256 + n.val / 4) * 4 + n.val % 4 = k.val * 1024 + n.val
  omega

/-! ## The Hamilton table -/

/-- A component index is one of the four. -/
theorem fin4_cases (c : Fin 4) : c = 0 ∨ c = 1 ∨ c = 2 ∨ c = 3 := by omega

/-- The stack of input component 0 read at `(i, o, c)`: the weight entry `w[o, i, cmp c 0]` with the sign `neg c 0`. -/
theorem st0_apply (w : S256x256x4.Idx → EReal) (i o : Fin 256) (c : Fin 4) :
    st0 w (ix3 i o c) = Cert.Quat.sgn c 0 * w (ix3 o i (Cert.Quat.cmp c 0)) := by
  unfold st0
  rw [stack_apply]
  rcases fin4_cases c with rfl | rfl | rfl | rfl
  · show col wPos (pl0 w) (ix3 i o (0 : Fin 1)) = Ideal.ofBits .f32 wPos * w (ix3 o i (0 : Fin 4))
    rw [col_apply, pl0_apply]
  · show col wPos (pl1 w) (ix3 i o (0 : Fin 1)) = Ideal.ofBits .f32 wPos * w (ix3 o i (1 : Fin 4))
    rw [col_apply, pl1_apply]
  · show col wPos (pl2 w) (ix3 i o (0 : Fin 1)) = Ideal.ofBits .f32 wPos * w (ix3 o i (2 : Fin 4))
    rw [col_apply, pl2_apply]
  · show col wPos (pl3 w) (ix3 i o (0 : Fin 1)) = Ideal.ofBits .f32 wPos * w (ix3 o i (3 : Fin 4))
    rw [col_apply, pl3_apply]

/-- The stack of input component 1 read at `(i, o, c)`: the weight entry `w[o, i, cmp c 1]` with the sign `neg c 1`. -/
theorem st1_apply (w : S256x256x4.Idx → EReal) (i o : Fin 256) (c : Fin 4) :
    st1 w (ix3 i o c) = Cert.Quat.sgn c 1 * w (ix3 o i (Cert.Quat.cmp c 1)) := by
  unfold st1
  rw [stack_apply]
  rcases fin4_cases c with rfl | rfl | rfl | rfl
  · show col wNeg (pl1 w) (ix3 i o (0 : Fin 1)) = Ideal.ofBits .f32 wNeg * w (ix3 o i (1 : Fin 4))
    rw [col_apply, pl1_apply]
  · show col wPos (pl0 w) (ix3 i o (0 : Fin 1)) = Ideal.ofBits .f32 wPos * w (ix3 o i (0 : Fin 4))
    rw [col_apply, pl0_apply]
  · show col wPos (pl3 w) (ix3 i o (0 : Fin 1)) = Ideal.ofBits .f32 wPos * w (ix3 o i (3 : Fin 4))
    rw [col_apply, pl3_apply]
  · show col wNeg (pl2 w) (ix3 i o (0 : Fin 1)) = Ideal.ofBits .f32 wNeg * w (ix3 o i (2 : Fin 4))
    rw [col_apply, pl2_apply]

/-- The stack of input component 2 read at `(i, o, c)`: the weight entry `w[o, i, cmp c 2]` with the sign `neg c 2`. -/
theorem st2_apply (w : S256x256x4.Idx → EReal) (i o : Fin 256) (c : Fin 4) :
    st2 w (ix3 i o c) = Cert.Quat.sgn c 2 * w (ix3 o i (Cert.Quat.cmp c 2)) := by
  unfold st2
  rw [stack_apply]
  rcases fin4_cases c with rfl | rfl | rfl | rfl
  · show col wNeg (pl2 w) (ix3 i o (0 : Fin 1)) = Ideal.ofBits .f32 wNeg * w (ix3 o i (2 : Fin 4))
    rw [col_apply, pl2_apply]
  · show col wNeg (pl3 w) (ix3 i o (0 : Fin 1)) = Ideal.ofBits .f32 wNeg * w (ix3 o i (3 : Fin 4))
    rw [col_apply, pl3_apply]
  · show col wPos (pl0 w) (ix3 i o (0 : Fin 1)) = Ideal.ofBits .f32 wPos * w (ix3 o i (0 : Fin 4))
    rw [col_apply, pl0_apply]
  · show col wPos (pl1 w) (ix3 i o (0 : Fin 1)) = Ideal.ofBits .f32 wPos * w (ix3 o i (1 : Fin 4))
    rw [col_apply, pl1_apply]

/-- The stack of input component 3 read at `(i, o, c)`: the weight entry `w[o, i, cmp c 3]` with the sign `neg c 3`. -/
theorem st3_apply (w : S256x256x4.Idx → EReal) (i o : Fin 256) (c : Fin 4) :
    st3 w (ix3 i o c) = Cert.Quat.sgn c 3 * w (ix3 o i (Cert.Quat.cmp c 3)) := by
  unfold st3
  rw [stack_apply]
  rcases fin4_cases c with rfl | rfl | rfl | rfl
  · show col wNeg (pl3 w) (ix3 i o (0 : Fin 1)) = Ideal.ofBits .f32 wNeg * w (ix3 o i (3 : Fin 4))
    rw [col_apply, pl3_apply]
  · show col wPos (pl2 w) (ix3 i o (0 : Fin 1)) = Ideal.ofBits .f32 wPos * w (ix3 o i (2 : Fin 4))
    rw [col_apply, pl2_apply]
  · show col wNeg (pl1 w) (ix3 i o (0 : Fin 1)) = Ideal.ofBits .f32 wNeg * w (ix3 o i (1 : Fin 4))
    rw [col_apply, pl1_apply]
  · show col wPos (pl0 w) (ix3 i o (0 : Fin 1)) = Ideal.ofBits .f32 wPos * w (ix3 o i (0 : Fin 4))
    rw [col_apply, pl0_apply]

/-- The matrix read at row `k`, column `n`: the Hamilton table's entry. -/
theorem mflat_apply (w : S256x256x4.Idx → EReal) (k n : Fin 1024) :
    mflat w (ix2 k n) = Cert.Quat.hamAt w k (Cert.Quat.hi n) (Cert.Quat.lo n) := by
  unfold mflat Cert.Quat.hamAt
  rw [truncf_apply, flat_apply, inter_apply]
  rcases fin4_cases (Cert.Quat.lo k) with h | h | h | h <;> rw [h]
  · show lift (st0 w) (ix4 (Cert.Quat.hi k) (0 : Fin 1) (Cert.Quat.hi n) (Cert.Quat.lo n)) = _
    rw [lift_apply, st0_apply]
  · show lift (st1 w) (ix4 (Cert.Quat.hi k) (0 : Fin 1) (Cert.Quat.hi n) (Cert.Quat.lo n)) = _
    rw [lift_apply, st1_apply]
  · show lift (st2 w) (ix4 (Cert.Quat.hi k) (0 : Fin 1) (Cert.Quat.hi n) (Cert.Quat.lo n)) = _
    rw [lift_apply, st2_apply]
  · show lift (st3 w) (ix4 (Cert.Quat.hi k) (0 : Fin 1) (Cert.Quat.hi n) (Cert.Quat.lo n)) = _
    rw [lift_apply, st3_apply]

/-- The matrix the region reads, at row `k` and column `n`: the Hamilton table's entry over the launched weight. -/
theorem v82_apply (m : (ℓ : Loc nD τ sig) → Buf (Elt Ideal) ℓ) (c : Dev nD) (k n : Fin 1024) :
    (V0 m c (Proc.devRef .tc main_v82) : S1024x1024.Idx → EReal) (ix2 k n)
      = Cert.Quat.hamAt (m ((c.tc : Thread nD τ).loc main_arg1)) k (Cert.Quat.hi n) (Cert.Quat.lo n) := by
  rw [v82_eq]
  exact mflat_apply _ k n

end Cert.KernelIdeal.HamMatrix

end
-- ==== Proof.RefValue.lean ====
/-
  The reference program's result, read at an index, is the sixteen plane products combined with the Hamilton
  product's signs, plus the bias: `Cert.Quat.refVal`.

  The program slices the four component planes of the input and of the weight, takes sixteen products of an input plane
  with a weight plane (entry `(b, o)` is `Σ_i xplane[b, i] · wplane[o, i]`), combines them four by four, stacks the
  four results on a new last axis and adds the bias to every row. Each stage is read at an index from its operands; the
  composed index maps are coordinate-wise equal to the plain constructors `ix2` / `ix3`.
-/
import proofs.«149754_j7189775253858_1_alg».proof.Proof.Gen.ReferenceIdeal.Read
import proofs.«149754_j7189775253858_1_alg».proof.Proof.QuatSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.Quat

/-- The input array's type. -/
abbrev XT := (⟨S32768x256x4, .f32⟩ : BufTy).Contents (Elt Ideal)
/-- The weight array's type. -/
abbrev WT := (⟨S256x256x4, .f32⟩ : BufTy).Contents (Elt Ideal)
/-- The bias array's type. -/
abbrev BT := (⟨S256x4, .f32⟩ : BufTy).Contents (Elt Ideal)

/-- A rank-2 index with the coordinates of `ix2 a b` is `ix2 a b`. -/
theorem ix2_of_val {n0 n1 : Nat} (f : (⟨2, ![n0, n1]⟩ : Shape).Idx) (a : Fin n0) (b : Fin n1)
    (h0 : (f 0).val = a.val) (h1 : (f 1).val = b.val) : f = ix2 a b := by
  funext d; apply Fin.ext
  match d with
  | ⟨0, _⟩ => exact h0
  | ⟨1, _⟩ => exact h1

/-- A rank-3 index with the coordinates of `ix3 a b c` is `ix3 a b c`. -/
theorem ix3_of_val {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d; apply Fin.ext
  match d with
  | ⟨0, _⟩ => exact h0
  | ⟨1, _⟩ => exact h1
  | ⟨2, _⟩ => exact h2

/-- Component plane 0 of the input at `(b, i)`. -/
theorem xplane0 (x : XT) (b : Fin 32768) (i : Fin 256) :
    val_main_v1 (F := Ideal) x (ix2 b i) = x (ix3 b i 0) := by
  rw [val_main_v1_apply, val_main_v0_apply]
  congr 1
  exact ix3_of_val _ _ _ _
    (by show (b.val * 256 + i.val) / 256 = b.val; omega)
    (by show (b.val * 256 + i.val) / 1 % 256 = i.val; have := i.isLt; omega)
    rfl

/-- Component plane 1 of the input at `(b, i)`. -/
theorem xplane1 (x : XT) (b : Fin 32768) (i : Fin 256) :
    val_main_v3 (F := Ideal) x (ix2 b i) = x (ix3 b i 1) := by
  rw [val_main_v3_apply, val_main_v2_apply]
  congr 1
  exact ix3_of_val _ _ _ _
    (by show (b.val * 256 + i.val) / 256 = b.val; omega)
    (by show (b.val * 256 + i.val) / 1 % 256 = i.val; have := i.isLt; omega)
    rfl

/-- Component plane 2 of the input at `(b, i)`. -/
theorem xplane2 (x : XT) (b : Fin 32768) (i : Fin 256) :
    val_main_v5 (F := Ideal) x (ix2 b i) = x (ix3 b i 2) := by
  rw [val_main_v5_apply, val_main_v4_apply]
  congr 1
  exact ix3_of_val _ _ _ _
    (by show (b.val * 256 + i.val) / 256 = b.val; omega)
    (by show (b.val * 256 + i.val) / 1 % 256 = i.val; have := i.isLt; omega)
    rfl

/-- Component plane 3 of the input at `(b, i)`. -/
theorem xplane3 (x : XT) (b : Fin 32768) (i : Fin 256) :
    val_main_v7 (F := Ideal) x (ix2 b i) = x (ix3 b i 3) := by
  rw [val_main_v7_apply, val_main_v6_apply]
  congr 1
  exact ix3_of_val _ _ _ _
    (by show (b.val * 256 + i.val) / 256 = b.val; omega)
    (by show (b.val * 256 + i.val) / 1 % 256 = i.val; have := i.isLt; omega)
    rfl

/-- Component plane 0 of the weight at `(o, i)`. -/
theorem wplane0 (w : WT) (o : Fin 256) (i : Fin 256) :
    val_main_v9 (F := Ideal) w (ix2 o i) = w (ix3 o i 0) := by
  rw [val_main_v9_apply, val_main_v8_apply]
  congr 1
  exact ix3_of_val _ _ _ _
    (by show (o.val * 256 + i.val) / 256 = o.val; omega)
    (by show (o.val * 256 + i.val) / 1 % 256 = i.val; have := i.isLt; omega)
    rfl

/-- Component plane 1 of the weight at `(o, i)`. -/
theorem wplane1 (w : WT) (o : Fin 256) (i : Fin 256) :
    val_main_v11 (F := Ideal) w (ix2 o i) = w (ix3 o i 1) := by
  rw [val_main_v11_apply, val_main_v10_apply]
  congr 1
  exact ix3_of_val _ _ _ _
    (by show (o.val * 256 + i.val) / 256 = o.val; omega)
    (by show (o.val * 256 + i.val) / 1 % 256 = i.val; have := i.isLt; omega)
    rfl

/-- Component plane 2 of the weight at `(o, i)`. -/
theorem wplane2 (w : WT) (o : Fin 256) (i : Fin 256) :
    val_main_v13 (F := Ideal) w (ix2 o i) = w (ix3 o i 2) := by
  rw [val_main_v13_apply, val_main_v12_apply]
  congr 1
  exact ix3_of_val _ _ _ _
    (by show (o.val * 256 + i.val) / 256 = o.val; omega)
    (by show (o.val * 256 + i.val) / 1 % 256 = i.val; have := i.isLt; omega)
    rfl

/-- Component plane 3 of the weight at `(o, i)`. -/
theorem wplane3 (w : WT) (o : Fin 256) (i : Fin 256) :
    val_main_v15 (F := Ideal) w (ix2 o i) = w (ix3 o i 3) := by
  rw [val_main_v15_apply, val_main_v14_apply]
  congr 1
  exact ix3_of_val _ _ _ _
    (by show (o.val * 256 + i.val) / 256 = o.val; omega)
    (by show (o.val * 256 + i.val) / 1 % 256 = i.val; have := i.isLt; omega)
    rfl

/-- The product of input plane 0 with weight plane 0 at `(b, o)`. -/
theorem dot16 (x : XT) (w : WT) (b : Fin 32768) (o : Fin 256) :
    val_main_v16 (F := Ideal) x w (ix2 b o) = D x w b o 0 0 := by
  rw [val_main_v16_apply]
  unfold D
  refine Finset.sum_congr rfl fun k _ => ?_
  rw [show lidx_main_v16 (ix2 b o) k = ix2 b k from ix2_of_val _ _ _ rfl rfl,
    show ridx_main_v16 (ix2 b o) k = ix2 o k from ix2_of_val _ _ _ rfl rfl, xplane0, wplane0]

/-- The product of input plane 1 with weight plane 1 at `(b, o)`. -/
theorem dot17 (x : XT) (w : WT) (b : Fin 32768) (o : Fin 256) :
    val_main_v17 (F := Ideal) x w (ix2 b o) = D x w b o 1 1 := by
  rw [val_main_v17_apply]
  unfold D
  refine Finset.sum_congr rfl fun k _ => ?_
  rw [show lidx_main_v17 (ix2 b o) k = ix2 b k from ix2_of_val _ _ _ rfl rfl,
    show ridx_main_v17 (ix2 b o) k = ix2 o k from ix2_of_val _ _ _ rfl rfl, xplane1, wplane1]

/-- The product of input plane 2 with weight plane 2 at `(b, o)`. -/
theorem dot19 (x : XT) (w : WT) (b : Fin 32768) (o : Fin 256) :
    val_main_v19 (F := Ideal) x w (ix2 b o) = D x w b o 2 2 := by
  rw [val_main_v19_apply]
  unfold D
  refine Finset.sum_congr rfl fun k _ => ?_
  rw [show lidx_main_v19 (ix2 b o) k = ix2 b k from ix2_of_val _ _ _ rfl rfl,
    show ridx_main_v19 (ix2 b o) k = ix2 o k from ix2_of_val _ _ _ rfl rfl, xplane2, wplane2]

/-- The product of input plane 3 with weight plane 3 at `(b, o)`. -/
theorem dot21 (x : XT) (w : WT) (b : Fin 32768) (o : Fin 256) :
    val_main_v21 (F := Ideal) x w (ix2 b o) = D x w b o 3 3 := by
  rw [val_main_v21_apply]
  unfold D
  refine Finset.sum_congr rfl fun k _ => ?_
  rw [show lidx_main_v21 (ix2 b o) k = ix2 b k from ix2_of_val _ _ _ rfl rfl,
    show ridx_main_v21 (ix2 b o) k = ix2 o k from ix2_of_val _ _ _ rfl rfl, xplane3, wplane3]

/-- The product of input plane 1 with weight plane 0 at `(b, o)`. -/
theorem dot23 (x : XT) (w : WT) (b : Fin 32768) (o : Fin 256) :
    val_main_v23 (F := Ideal) x w (ix2 b o) = D x w b o 1 0 := by
  rw [val_main_v23_apply]
  unfold D
  refine Finset.sum_congr rfl fun k _ => ?_
  rw [show lidx_main_v23 (ix2 b o) k = ix2 b k from ix2_of_val _ _ _ rfl rfl,
    show ridx_main_v23 (ix2 b o) k = ix2 o k from ix2_of_val _ _ _ rfl rfl, xplane1, wplane0]

/-- The product of input plane 0 with weight plane 1 at `(b, o)`. -/
theorem dot24 (x : XT) (w : WT) (b : Fin 32768) (o : Fin 256) :
    val_main_v24 (F := Ideal) x w (ix2 b o) = D x w b o 0 1 := by
  rw [val_main_v24_apply]
  unfold D
  refine Finset.sum_congr rfl fun k _ => ?_
  rw [show lidx_main_v24 (ix2 b o) k = ix2 b k from ix2_of_val _ _ _ rfl rfl,
    show ridx_main_v24 (ix2 b o) k = ix2 o k from ix2_of_val _ _ _ rfl rfl, xplane0, wplane1]

/-- The product of input plane 3 with weight plane 2 at `(b, o)`. -/
theorem dot26 (x : XT) (w : WT) (b : Fin 32768) (o : Fin 256) :
    val_main_v26 (F := Ideal) x w (ix2 b o) = D x w b o 3 2 := by
  rw [val_main_v26_apply]
  unfold D
  refine Finset.sum_congr rfl fun k _ => ?_
  rw [show lidx_main_v26 (ix2 b o) k = ix2 b k from ix2_of_val _ _ _ rfl rfl,
    show ridx_main_v26 (ix2 b o) k = ix2 o k from ix2_of_val _ _ _ rfl rfl, xplane3, wplane2]

/-- The product of input plane 2 with weight plane 3 at `(b, o)`. -/
theorem dot28 (x : XT) (w : WT) (b : Fin 32768) (o : Fin 256) :
    val_main_v28 (F := Ideal) x w (ix2 b o) = D x w b o 2 3 := by
  rw [val_main_v28_apply]
  unfold D
  refine Finset.sum_congr rfl fun k _ => ?_
  rw [show lidx_main_v28 (ix2 b o) k = ix2 b k from ix2_of_val _ _ _ rfl rfl,
    show ridx_main_v28 (ix2 b o) k = ix2 o k from ix2_of_val _ _ _ rfl rfl, xplane2, wplane3]

/-- The product of input plane 2 with weight plane 0 at `(b, o)`. -/
theorem dot30 (x : XT) (w : WT) (b : Fin 32768) (o : Fin 256) :
    val_main_v30 (F := Ideal) x w (ix2 b o) = D x w b o 2 0 := by
  rw [val_main_v30_apply]
  unfold D
  refine Finset.sum_congr rfl fun k _ => ?_
  rw [show lidx_main_v30 (ix2 b o) k = ix2 b k from ix2_of_val _ _ _ rfl rfl,
    show ridx_main_v30 (ix2 b o) k = ix2 o k from ix2_of_val _ _ _ rfl rfl, xplane2, wplane0]

/-- The product of input plane 3 with weight plane 1 at `(b, o)`. -/
theorem dot31 (x : XT) (w : WT) (b : Fin 32768) (o : Fin 256) :
    val_main_v31 (F := Ideal) x w (ix2 b o) = D x w b o 3 1 := by
  rw [val_main_v31_apply]
  unfold D
  refine Finset.sum_congr rfl fun k _ => ?_
  rw [show lidx_main_v31 (ix2 b o) k = ix2 b k from ix2_of_val _ _ _ rfl rfl,
    show ridx_main_v31 (ix2 b o) k = ix2 o k from ix2_of_val _ _ _ rfl rfl, xplane3, wplane1]

/-- The product of input plane 0 with weight plane 2 at `(b, o)`. -/
theorem dot33 (x : XT) (w : WT) (b : Fin 32768) (o : Fin 256) :
    val_main_v33 (F := Ideal) x w (ix2 b o) = D x w b o 0 2 := by
  rw [val_main_v33_apply]
  unfold D
  refine Finset.sum_congr rfl fun k _ => ?_
  rw [show lidx_main_v33 (ix2 b o) k = ix2 b k from ix2_of_val _ _ _ rfl rfl,
    show ridx_main_v33 (ix2 b o) k = ix2 o k from ix2_of_val _ _ _ rfl rfl, xplane0, wplane2]

/-- The product of input plane 1 with weight plane 3 at `(b, o)`. -/
theorem dot35 (x : XT) (w : WT) (b : Fin 32768) (o : Fin 256) :
    val_main_v35 (F := Ideal) x w (ix2 b o) = D x w b o 1 3 := by
  rw [val_main_v35_apply]
  unfold D
  refine Finset.sum_congr rfl fun k _ => ?_
  rw [show lidx_main_v35 (ix2 b o) k = ix2 b k from ix2_of_val _ _ _ rfl rfl,
    show ridx_main_v35 (ix2 b o) k = ix2 o k from ix2_of_val _ _ _ rfl rfl, xplane1, wplane3]

/-- The product of input plane 3 with weight plane 0 at `(b, o)`. -/
theorem dot37 (x : XT) (w : WT) (b : Fin 32768) (o : Fin 256) :
    val_main_v37 (F := Ideal) x w (ix2 b o) = D x w b o 3 0 := by
  rw [val_main_v37_apply]
  unfold D
  refine Finset.sum_congr rfl fun k _ => ?_
  rw [show lidx_main_v37 (ix2 b o) k = ix2 b k from ix2_of_val _ _ _ rfl rfl,
    show ridx_main_v37 (ix2 b o) k = ix2 o k from ix2_of_val _ _ _ rfl rfl, xplane3, wplane0]

/-- The product of input plane 2 with weight plane 1 at `(b, o)`. -/
theorem dot38 (x : XT) (w : WT) (b : Fin 32768) (o : Fin 256) :
    val_main_v38 (F := Ideal) x w (ix2 b o) = D x w b o 2 1 := by
  rw [val_main_v38_apply]
  unfold D
  refine Finset.sum_congr rfl fun k _ => ?_
  rw [show lidx_main_v38 (ix2 b o) k = ix2 b k from ix2_of_val _ _ _ rfl rfl,
    show ridx_main_v38 (ix2 b o) k = ix2 o k from ix2_of_val _ _ _ rfl rfl, xplane2, wplane1]

/-- The product of input plane 1 with weight plane 2 at `(b, o)`. -/
theorem dot40 (x : XT) (w : WT) (b : Fin 32768) (o : Fin 256) :
    val_main_v40 (F := Ideal) x w (ix2 b o) = D x w b o 1 2 := by
  rw [val_main_v40_apply]
  unfold D
  refine Finset.sum_congr rfl fun k _ => ?_
  rw [show lidx_main_v40 (ix2 b o) k = ix2 b k from ix2_of_val _ _ _ rfl rfl,
    show ridx_main_v40 (ix2 b o) k = ix2 o k from ix2_of_val _ _ _ rfl rfl, xplane1, wplane2]

/-- The product of input plane 0 with weight plane 3 at `(b, o)`. -/
theorem dot42 (x : XT) (w : WT) (b : Fin 32768) (o : Fin 256) :
    val_main_v42 (F := Ideal) x w (ix2 b o) = D x w b o 0 3 := by
  rw [val_main_v42_apply]
  unfold D
  refine Finset.sum_congr rfl fun k _ => ?_
  rw [show lidx_main_v42 (ix2 b o) k = ix2 b k from ix2_of_val _ _ _ rfl rfl,
    show ridx_main_v42 (ix2 b o) k = ix2 o k from ix2_of_val _ _ _ rfl rfl, xplane0, wplane3]

/-- Component 0 of the Hamilton product at `(b, o)`: its four plane products combined in the program's order. -/
theorem comb0 (x : XT) (w : WT) (b : Fin 32768) (o : Fin 256) :
    val_main_v22 (F := Ideal) x w (ix2 b o) = comb (D x w b o) 0 := by
  rw [val_main_v22_apply, val_main_v20_apply, val_main_v18_apply, dot16, dot17, dot19, dot21]
  rfl

/-- Component 1 of the Hamilton product at `(b, o)`: its four plane products combined in the program's order. -/
theorem comb1 (x : XT) (w : WT) (b : Fin 32768) (o : Fin 256) :
    val_main_v29 (F := Ideal) x w (ix2 b o) = comb (D x w b o) 1 := by
  rw [val_main_v29_apply, val_main_v27_apply, val_main_v25_apply, dot23, dot24, dot26, dot28]
  rfl

/-- Component 2 of the Hamilton product at `(b, o)`: its four plane products combined in the program's order. -/
theorem comb2 (x : XT) (w : WT) (b : Fin 32768) (o : Fin 256) :
    val_main_v36 (F := Ideal) x w (ix2 b o) = comb (D x w b o) 2 := by
  rw [val_main_v36_apply, val_main_v34_apply, val_main_v32_apply, dot30, dot31, dot33, dot35]
  rfl

/-- Component 3 of the Hamilton product at `(b, o)`: its four plane products combined in the program's order. -/
theorem comb3 (x : XT) (w : WT) (b : Fin 32768) (o : Fin 256) :
    val_main_v43 (F := Ideal) x w (ix2 b o) = comb (D x w b o) 3 := by
  rw [val_main_v43_apply, val_main_v41_apply, val_main_v39_apply, dot37, dot38, dot40, dot42]
  rfl

/-- The stacked array at `(b, o, c)`: component `c` of the Hamilton product. The four pieces have extent one along the
    last axis, so piece `c` starts at place `c` and is read at `(b, o, 0)`. -/
theorem stack_apply (x : XT) (w : WT) (b : Fin 32768) (o : Fin 256) (c : Fin 4) :
    val_main_v48 (F := Ideal) x w (ix3 b o c) = comb (D x w b o) c := by
  unfold val_main_v48
  have hi : ∀ (c : Fin 4) (a : Fin S32768x256x1.rank), a.cast (rfl : S32768x256x1.rank = S32768x256x4.rank) ≠ (2 : Fin S32768x256x4.rank) →
      ((ix3 b o (0 : Fin 1) : S32768x256x1.Idx) a).val = ((ix3 b o c : S32768x256x4.Idx) (a.cast rfl)).val := fun c a ha =>
    match a with
    | ⟨0, _⟩ => rfl
    | ⟨1, _⟩ => rfl
    | ⟨2, _⟩ => absurd rfl ha
  match c with
  | ⟨0, _⟩ =>
    rw [concatenate_apply_piece (2 : Fin S32768x256x4.rank) _ _ _ 0 (by show (0 : Nat) < 4; omega) S32768x256x1 (val_main_v44 (F := Ideal) x w) rfl rfl 0 rfl
      (ix3 b o (0 : Fin 1)) (hi _) rfl, val_main_v44_apply,
      show idx_main_v44 (ix3 b o (0 : Fin 1)) = ix2 b o from ix2_of_val _ _ _ rfl rfl, comb0]
    rfl
  | ⟨1, _⟩ =>
    rw [concatenate_apply_piece (2 : Fin S32768x256x4.rank) _ _ _ 1 (by show (1 : Nat) < 4; omega) S32768x256x1 (val_main_v45 (F := Ideal) x w) rfl rfl 1 rfl
      (ix3 b o (0 : Fin 1)) (hi _) rfl, val_main_v45_apply,
      show idx_main_v45 (ix3 b o (0 : Fin 1)) = ix2 b o from ix2_of_val _ _ _ rfl rfl, comb1]
    rfl
  | ⟨2, _⟩ =>
    rw [concatenate_apply_piece (2 : Fin S32768x256x4.rank) _ _ _ 2 (by show (2 : Nat) < 4; omega) S32768x256x1 (val_main_v46 (F := Ideal) x w) rfl rfl 2 rfl
      (ix3 b o (0 : Fin 1)) (hi _) rfl, val_main_v46_apply,
      show idx_main_v46 (ix3 b o (0 : Fin 1)) = ix2 b o from ix2_of_val _ _ _ rfl rfl, comb2]
    rfl
  | ⟨3, _⟩ =>
    rw [concatenate_apply_piece (2 : Fin S32768x256x4.rank) _ _ _ 3 (by show (3 : Nat) < 4; omega) S32768x256x1 (val_main_v47 (F := Ideal) x w) rfl rfl 3 rfl
      (ix3 b o (0 : Fin 1)) (hi _) rfl, val_main_v47_apply,
      show idx_main_v47 (ix3 b o (0 : Fin 1)) = ix2 b o from ix2_of_val _ _ _ rfl rfl, comb3]
    rfl

/-- The bias broadcast over the rows, at `(b, o, c)`. -/
theorem bias_apply (bias : BT) (b : Fin 32768) (o : Fin 256) (c : Fin 4) :
    val_main_v50 (F := Ideal) bias (ix3 b o c) = bias (ix2 o c) := by
  rw [val_main_v50_apply, val_main_v49_apply]
  congr 1
  exact ix2_of_val _ _ _ rfl rfl

/-- **The reference program's result is `refVal`.** -/
theorem ref_eq (x : XT) (w : WT) (bias : BT) :
    val_main_v51 (F := Ideal) x w bias = refVal x w bias := by
  funext j
  obtain ⟨b, o, c, rfl⟩ : ∃ b o c, j = ix3 b o c := ⟨j 0, j 1, j 2, eq_ix3 j⟩
  rw [val_main_v51_apply, stack_apply, bias_apply]
  rfl

end Cert.ReferenceIdeal.RefValue

end
-- ==== Proof.LibRealClosure.lean ====
/-
  GENERAL LEMMAS (Mathlib and the ideal float instance only; no program is imported).

  The float operations at the ideal instance are the textbook operations on the extended reals `[-∞, +∞]`.
  Call an extended real REAL when it is the image of a real number, that is, when it is neither infinity
  (`IsReal`). This file proves that the scalar operations send real operands to a real result, and names that
  result: sum, difference, product, negation, maximum, minimum and absolute value always; a quotient when the
  divisor is not zero (`a / b`); the exponential (`exp a`); the reciprocal square root of a positive number
  (`(√r)⁻¹`); a selection between two reals; a finite sum of reals (the real sum of the witnesses: the coercion
  of the reals into the extended reals commutes with finite sums, `coe_finset_sum`). The infinities are where
  the field laws fail on the extended reals (distributivity, cancelling), so "every entry is real" is the
  hypothesis under which a law proved on the real numbers may be transported to the extended reals.

  It also reads `f32` bit patterns as the extended reals they denote: `0`, `1`, `100000`, `800000`, `+∞`; and, in
  general, a pattern whose exponent field is not all ones denotes a real (`isReal_ofBits_f32`), a POSITIVE real
  when moreover its sign bit is clear and its exponent field is not zero (`ofBits_f32_pos`: a normal number
  `(2²³ + T) · 2^(E − 150)`), so that a small positive literal such as `0x3727C5AC` (about `1e-5`) can be used
  as "some positive real" without its value ever being computed (`ofBits_f32_eps_pos`).

  Last, the finiteness test `|x| < +∞` read back: an extended real whose absolute value is below `+∞` is real.
-/
import Idealize.ShloMosaic.PureOps.Ideal
import Idealize.ShloMosaic.PureOps.Ideal.Laws
import Idealize.ShloMosaic.Lib.ValueIdx

noncomputable section

namespace Idealize.ShloMosaic.RealClosure

open scoped BigOperators

/-- An extended real is REAL when it is the image of a real number. -/
def IsReal (x : EReal) : Prop := ∃ r : ℝ, x = (r : EReal)

/-- The image of a real number is real. -/
theorem isReal_coe (r : ℝ) : IsReal (r : EReal) := ⟨r, rfl⟩

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals with real witnesses is the image of the real sum of the witnesses. -/
theorem sum_eq_coe {ι : Type*} (s : Finset ι) {Y : ι → EReal} {y : ι → ℝ} (h : ∀ i ∈ s, Y i = (y i : EReal)) :
    ∑ i ∈ s, Y i = ((∑ i ∈ s, y i : ℝ) : EReal) := by
  rw [coe_finset_sum]; exact Finset.sum_congr rfl h

/-- The same over a whole finite index type. -/
theorem sum_univ_eq_coe {ι : Type*} [Fintype ι] {Y : ι → EReal} {y : ι → ℝ} (h : ∀ i, Y i = (y i : EReal)) :
    ∑ i, Y i = ((∑ i, y i : ℝ) : EReal) :=
  sum_eq_coe Finset.univ fun i _ => h i

/-- The maximum of the images of two reals is the image of their maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of the images of two reals is the image of their minimum. -/
theorem min_coe_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The ideal quotient of two reals, the divisor not zero, is the image of the real quotient. -/
theorem div_coe_coe (a : ℝ) {b : ℝ} (hb : b ≠ 0) : Ideal.div (a : EReal) (b : EReal) = ((a / b : ℝ) : EReal) := by
  rw [Ideal.div, if_neg (EReal.coe_ne_zero.mpr hb), ← EReal.coe_inv, ← EReal.coe_mul, div_eq_mul_inv]

/-- The ideal reciprocal square root of a positive real `r` is the image of `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

namespace IsReal

variable {x y : EReal}

theorem zero : IsReal 0 := ⟨0, EReal.coe_zero.symm⟩
theorem one : IsReal 1 := ⟨1, EReal.coe_one.symm⟩

/-- A real extended real is not `+∞`. -/
theorem ne_top (hx : IsReal x) : x ≠ ⊤ := by obtain ⟨a, rfl⟩ := hx; exact EReal.coe_ne_top a
/-- A real extended real is not `-∞`. -/
theorem ne_bot (hx : IsReal x) : x ≠ ⊥ := by obtain ⟨a, rfl⟩ := hx; exact EReal.coe_ne_bot a

/-- The canonical witness: a real extended real is the image of its real part. -/
theorem coe_toReal (hx : IsReal x) : ((x.toReal : ℝ) : EReal) = x := EReal.coe_toReal hx.ne_top hx.ne_bot

theorem add (hx : IsReal x) (hy : IsReal y) : IsReal (x + y) := by
  obtain ⟨a, rfl⟩ := hx; obtain ⟨b, rfl⟩ := hy; exact ⟨a + b, (EReal.coe_add a b).symm⟩
theorem sub (hx : IsReal x) (hy : IsReal y) : IsReal (x - y) := by
  obtain ⟨a, rfl⟩ := hx; obtain ⟨b, rfl⟩ := hy; exact ⟨a - b, (EReal.coe_sub a b).symm⟩
theorem mul (hx : IsReal x) (hy : IsReal y) : IsReal (x * y) := by
  obtain ⟨a, rfl⟩ := hx; obtain ⟨b, rfl⟩ := hy; exact ⟨a * b, (EReal.coe_mul a b).symm⟩
theorem neg (hx : IsReal x) : IsReal (-x) := by
  obtain ⟨a, rfl⟩ := hx; exact ⟨-a, (EReal.coe_neg a).symm⟩
theorem max (hx : IsReal x) (hy : IsReal y) : IsReal (max x y) := by
  obtain ⟨a, rfl⟩ := hx; obtain ⟨b, rfl⟩ := hy; exact ⟨_, max_coe_coe a b⟩
theorem min (hx : IsReal x) (hy : IsReal y) : IsReal (min x y) := by
  obtain ⟨a, rfl⟩ := hx; obtain ⟨b, rfl⟩ := hy; exact ⟨_, min_coe_coe a b⟩
/-- The ideal absolute value `max x (-x)` of a real is real. -/
theorem abs (hx : IsReal x) : IsReal (Max.max x (-x)) := hx.max hx.neg

/-- The ideal quotient of two reals, the divisor not zero, is real. -/
theorem div (hx : IsReal x) (hy : IsReal y) (h0 : y ≠ 0) : IsReal (Ideal.div x y) := by
  obtain ⟨a, rfl⟩ := hx; obtain ⟨b, rfl⟩ := hy
  exact ⟨_, div_coe_coe a (EReal.coe_ne_zero.mp h0)⟩

/-- The ideal exponential of a real is real. -/
theorem exp (hx : IsReal x) : IsReal (Ideal.exp x) := by
  obtain ⟨a, rfl⟩ := hx; exact ⟨Real.exp a, rfl⟩

/-- The ideal reciprocal square root of a positive real is real. -/
theorem rsqrt (hx : IsReal x) (h0 : 0 < x) : IsReal (Ideal.rsqrt x) := by
  obtain ⟨a, rfl⟩ := hx
  exact ⟨_, rsqrt_coe_pos (EReal.coe_pos.mp h0)⟩

/-- A selection between two reals is real, whatever the condition. -/
theorem select (c : BitVec 1) (hx : IsReal x) (hy : IsReal y) : IsReal (Scalar.select c x y) := by
  unfold Scalar.select; split <;> assumption

/-- A finite sum of reals is real. -/
theorem sum {ι : Type*} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
theorem sum_univ {ι : Type*} [Fintype ι] {f : ι → EReal} (h : ∀ i, IsReal (f i)) : IsReal (∑ i, f i) :=
  sum Finset.univ fun i _ => h i

end IsReal

/-- Real witnesses for a family of real extended reals, chosen all at once. -/
theorem exists_real_fun {ι : Type*} {Y : ι → EReal} (h : ∀ i, IsReal (Y i)) : ∃ y : ι → ℝ, ∀ i, Y i = (y i : EReal) :=
  ⟨fun i => (h i).choose, fun i => (h i).choose_spec⟩

/-- Real is exactly: neither infinity. -/
theorem isReal_iff {x : EReal} : IsReal x ↔ x ≠ ⊤ ∧ x ≠ ⊥ :=
  ⟨fun h => ⟨h.ne_top, h.ne_bot⟩, fun h => ⟨x.toReal, (EReal.coe_toReal h.1 h.2).symm⟩⟩

/-! ## The finiteness test read back -/

/-- An extended real whose absolute value `max x (-x)` is below `+∞` is real. -/
theorem isReal_of_abs_lt_top {x : EReal} (h : max x (-x) < ⊤) : IsReal x := by
  induction x using EReal.rec with
  | bot => simp at h
  | top => simp at h
  | coe r => exact isReal_coe r

/-! ## Bit patterns -/

/-- The `f32` pattern of `+0.0` denotes `0`. -/
theorem ofBits_f32_zero : Ideal.ofBits .f32 0x00000000#32 = 0 := Ideal.ofBits_zero_f32

/-- The `f32` pattern of `1.0` denotes `1`. -/
theorem ofBits_f32_one : Ideal.ofBits .f32 0x3F800000#32 = 1 := by
  simp [Ideal.ofBits, Ideal.ieee, -EReal.coe_mul]; norm_num

/-- The `f32` pattern of `800000.0` denotes the real `800000`. -/
theorem ofBits_f32_800000 : Ideal.ofBits .f32 0x49435000#32 = ((800000 : ℝ) : EReal) := by
  simp [Ideal.ofBits, Ideal.ieee, -EReal.coe_mul]; norm_num

/-- The `f32` pattern of `100000.0` denotes the real `100000`. -/
theorem ofBits_f32_100000 : Ideal.ofBits .f32 0x47C35000#32 = ((100000 : ℝ) : EReal) := by
  simp [Ideal.ofBits, Ideal.ieee, -EReal.coe_mul]; norm_num

/-- The `f32` pattern of `+∞` denotes `⊤`. -/
theorem ofBits_f32_inf : Ideal.ofBits .f32 0x7F800000#32 = ⊤ := by
  simp [Ideal.ofBits, Ideal.ieee]

/-- An `f32` pattern whose exponent field is not all ones (neither an infinity nor a NaN pattern) denotes a real.
    For a literal pattern the hypothesis is closed by `by decide`. -/
theorem isReal_ofBits_f32 (b : BitVec 32) (h : (b.extractLsb' 23 8).toNat ≠ 255) : IsReal (Ideal.ofBits .f32 b) := by
  show ∃ r : ℝ, Ideal.ieee 8 23 b = (r : EReal)
  unfold Ideal.ieee
  dsimp only
  rw [if_neg (by simpa using h)]
  split <;> exact ⟨_, rfl⟩

/-- An `f32` pattern with a clear sign bit and an exponent field neither all ones nor zero (a positive normal
    number) denotes a positive real. For a literal pattern the three hypotheses are closed by `by decide`. -/
theorem ofBits_f32_pos (b : BitVec 32) (hs : b.extractLsb' 31 1 = 0#1) (h : (b.extractLsb' 23 8).toNat ≠ 255)
    (h0 : (b.extractLsb' 23 8).toNat ≠ 0) : ∃ r : ℝ, 0 < r ∧ Ideal.ofBits .f32 b = (r : EReal) := by
  show ∃ r : ℝ, 0 < r ∧ Ideal.ieee 8 23 b = (r : EReal)
  unfold Ideal.ieee
  dsimp only
  rw [if_neg (by simpa using h), if_neg h0]
  refine ⟨_, ?_, rfl⟩
  have hneg : (b.extractLsb' (8 + 23) 1 == 1#1) = false := by
    rw [show 8 + 23 = 31 from rfl, hs]; decide
  rw [hneg]
  simp only [Bool.false_eq_true, if_false, one_mul]
  positivity

/-- The `f32` pattern `0x3727C5AC` (about `1e-5`) denotes some positive real. -/
theorem ofBits_f32_eps_pos : ∃ eps : ℝ, 0 < eps ∧ Ideal.ofBits .f32 0x3727C5AC#32 = (eps : EReal) :=
  ofBits_f32_pos _ (by decide) (by decide) (by decide)

end Idealize.ShloMosaic.RealClosure

end
-- ==== Proof.QuatAlgebra.lean ====
/-
  The flat product and the sixteen plane products give the same quaternion layer.

  Fix an output place `(b, o, c)`. The flat sum runs over the 1024 places `k = 4 i + ci` of row `b`; taken in
  blocks of four consecutive places it is a sum over the 256 quaternions `i` of four terms, one per input component
  `ci`, each `± x[b, i, ci] · w[o, i, cmp c ci]`. Written out for each of the four output components `c`, and the
  sum over `i` distributed over the four terms, this is the Hamilton product's combination of four plane products.
  Distributing a sum over a difference is a law of the real numbers, not of the extended reals, so the arithmetic is
  done on real witnesses of the entries and carried to the extended reals once on each side.
-/
import proofs.«149754_j7189775253858_1_alg».proof.Proof.QuatSpec
import proofs.«149754_j7189775253858_1_alg».proof.Proof.LibRealClosure
import Mathlib.Tactic

noncomputable section

open scoped BigOperators

namespace Cert.Quat

open Idealize.ShloMosaic Idealize.ShloMosaic.ValueIdx Idealize.ShloMosaic.RealClosure

/-! ## The flat sum taken in blocks of four -/

/-- A flat place is a quaternion and a component: `k = 4 i + ci`. -/
def joinEquiv : Fin 256 × Fin 4 ≃ Fin 1024 where
  toFun p := join p.1 p.2
  invFun k := (hi k, lo k)
  left_inv p := by
    show (hi (join p.1 p.2), lo (join p.1 p.2)) = p
    rw [hi_join, lo_join]
  right_inv k := join_hi_lo k

/-- A sum over the 1024 flat places is the sum over the 256 quaternions of the sums over their four components. -/
theorem sum_flat_eq_blocks {M : Type*} [AddCommMonoid M] (g : Fin 1024 → M) :
    ∑ k : Fin 1024, g k = ∑ i : Fin 256, ∑ ci : Fin 4, g (join i ci) := by
  rw [← Fintype.sum_prod_type']
  exact (Fintype.sum_equiv joinEquiv _ _ fun _ => rfl).symm

/-! ## The identity over the real numbers -/

/-- The sign as a real number. -/
def sgnR (c ci : Fin 4) : ℝ := if neg c ci then -1 else 1

/-- The Hamilton product's combination of sixteen real plane products. -/
def combR (d : Fin 4 → Fin 4 → ℝ) : Fin 4 → ℝ :=
  ![((d 0 0 - d 1 1) - d 2 2) - d 3 3,
    ((d 1 0 + d 0 1) + d 3 2) - d 2 3,
    ((d 2 0 - d 3 1) + d 0 2) + d 1 3,
    ((d 3 0 + d 2 1) - d 1 2) + d 0 3]

/-- Over the reals: the sum over the quaternions of the four signed terms of output component `c` is the
    combination of four plane products. The four terms are written out, the sum over `i` is distributed over
    them, and the two sides agree up to the order of the terms. -/
theorem ham_real {n : ℕ} (X W : Fin n → Fin 4 → ℝ) (c : Fin 4) :
    ∑ i, ∑ ci, X i ci * (sgnR c ci * W i (cmp c ci)) = combR (fun cx cw => ∑ i, X i cx * W i cw) c := by
  fin_cases c <;>
    simp [Fin.sum_univ_four, sgnR, neg, cmp, combR, Finset.sum_add_distrib, Finset.sum_sub_distrib] <;> ring

/-! ## Carried to the extended reals -/

/-- The `f32` pattern of `-1.0` denotes `-1`. -/
theorem ofBits_f32_neg_one : Ideal.ofBits .f32 0xBF800000#32 = ((-1 : ℝ) : EReal) := by
  simp [Ideal.ofBits, Ideal.ieee, -EReal.coe_mul]; norm_num

/-- The sign the program multiplies by is the image of the real sign. -/
theorem sgn_eq_coe (c ci : Fin 4) : sgn c ci = ((sgnR c ci : ℝ) : EReal) := by
  unfold sgn sgnR
  split
  · exact ofBits_f32_neg_one
  · rw [ofBits_f32_one, EReal.coe_one]

/-- The combination of the images of sixteen reals is the image of their real combination. -/
theorem comb_coe (d : Fin 4 → Fin 4 → ℝ) (c : Fin 4) :
    comb (fun cx cw => ((d cx cw : ℝ) : EReal)) c = ((combR d c : ℝ) : EReal) := by
  fin_cases c <;> simp [comb, combR, EReal.coe_sub, EReal.coe_add]

/-- At one output place `(b, o, c)`, before the bias: the flat product is the combination of the plane products,
    the entries of the input and of the weight being real. -/
theorem flat_eq_comb (x : SX.Idx → EReal) (w : SW.Idx → EReal)
    (hx : ∀ i, ∃ r : ℝ, x i = (r : EReal)) (hw : ∀ i, ∃ r : ℝ, w i = (r : EReal))
    (b : Fin 32768) (o : Fin 256) (c : Fin 4) :
    ∑ k : Fin 1024, x (ix3 b (hi k) (lo k)) * hamAt w k o c = comb (D x w b o) c := by
  obtain ⟨xr, hxr⟩ := exists_real_fun (Y := x) hx
  obtain ⟨wr, hwr⟩ := exists_real_fun (Y := w) hw
  -- the right side is the image of the real combination of the real plane products
  have hD : D x w b o = fun cx cw => ((∑ i : Fin 256, xr (ix3 b i cx) * wr (ix3 o i cw) : ℝ) : EReal) := by
    funext cx cw
    unfold D
    apply sum_univ_eq_coe
    intro i
    rw [hxr, hwr, EReal.coe_mul]
  rw [hD]
  refine Eq.trans ?_ (comb_coe (fun cx cw => ∑ i : Fin 256, xr (ix3 b i cx) * wr (ix3 o i cw)) c).symm
  rw [← ham_real (fun i ci => xr (ix3 b i ci)) (fun i cw => wr (ix3 o i cw)) c]
  -- the left side, in blocks of four, is the image of the same real double sum, term by term
  rw [sum_flat_eq_blocks]
  simp only [hi_join, lo_join, hamAt]
  rw [coe_finset_sum]
  refine Finset.sum_congr rfl fun i _ => ?_
  rw [coe_finset_sum]
  refine Finset.sum_congr rfl fun ci _ => ?_
  rw [hxr, hwr, sgn_eq_coe, EReal.coe_mul, EReal.coe_mul]

/-- The flat product and the sixteen combined plane products agree at every output place, the entries of the input
    and of the weight being real. (The bias is added last on both sides and may be anything.) -/
theorem kerVal_eq_refVal (x : SX.Idx → EReal) (w : SW.Idx → EReal) (bias : SB.Idx → EReal)
    (hx : ∀ i, ∃ r : ℝ, x i = (r : EReal)) (hw : ∀ i, ∃ r : ℝ, w i = (r : EReal)) :
    kerVal x w bias = refVal x w bias := by
  funext j
  exact congrArg (fun t => t + bias (ix2 (j 1) (j 2))) (flat_eq_comb x w hx hw (j 0) (j 1) (j 2))

end Cert.Quat

end
-- ==== Proof.LibFiniteAll.lean ====
/-
  GENERAL LEMMA: a printed finiteness test read back, at the ideal values (no program is imported).

  A precondition "every entry of x is finite" is written `jnp.all(jnp.abs(x) < inf)` and prints as: the absolute value,
  a splat of the word of +∞, an ordered less-than, and a reduction by `and` over every axis from the constant 1. At the
  exact reading of the floats an entry is an extended real, and the test being 1 says it is neither infinity: it is a
  real number (`real_of_abs_lt_inf` for one value, `all_real` for an array of any shape).
-/
import Idealize.ShloMosaic.PureOps.Ideal
import Idealize.ShloMosaic.Lib.ValueIdx
import Idealize.ShloMosaic.Lib.ReduceAll
import Idealize.ShloMosaic.Lib.Pipeline.Value

noncomputable section

namespace Cert.FiniteAll

open Idealize.ShloMosaic Idealize.ShloMosaic.ValueIdx

/-- The scalar shape has one index. -/
instance : Subsingleton (⟨0, ![]⟩ : Shape).Idx := ⟨fun a b => funext fun d => d.elim0⟩

/-- One value: if |x| < +∞ tests true, x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) ⊤ = 1#1 := by rw [← htop]; exact h
  unfold Ideal.cmp at h'
  by_cases hlt : max (x : EReal) (-(x : EReal)) < ⊤
  · rw [max_lt_iff] at hlt
    have h1 : (x : EReal) ≠ ⊤ := hlt.1.ne
    have h2 : (x : EReal) ≠ ⊥ := by
      intro hh
      rw [hh] at hlt
      simp at hlt
    exact ⟨(x : EReal).toReal, (EReal.coe_toReal h1 h2).symm⟩
  · exfalso
    simp [hlt] at h'

/-- An array: if `jnp.all(|x| < +∞)` is 1, every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
          init hr hu ix0 = 1#1) (i : s.Idx) : ∃ r : ℝ, x i = (r : EReal) := by
  have e := Host.reduce_andi_all _ init hr hu ix0 h i
  refine real_of_abs_lt_inf (x i) ?_
  rw [cmpf_apply, broadcastInDim_apply _ hb _ i ix0 (fun a => a.elim0)] at e
  exact e

end Cert.FiniteAll

end
-- ==== Proof.FiniteInputs.lean ====
/-
  The precondition read back: when the printed finiteness test of the three argument arrays is 1, every entry of each
  array is a real number. The test is the conjunction of three bits, one per array, each the conjunction over the whole
  array of `|entry| < +∞`.
-/
import proofs.«149754_j7189775253858_1_alg».proof.Pre_finite_inputs
import proofs.«149754_j7189775253858_1_alg».proof.Proof.LibFiniteAll
import Idealize.ShloMosaic.Lib.Affine

noncomputable section

namespace Cert.Pre_finite_inputs.Reals

open Idealize.ShloMosaic Idealize.ShloMosaic.ValueIdx Cert.Pre_finite_inputs

variable [Facts]

/-- Every entry of every argument array is real when the test reads 1. -/
theorem entries_real (x : FVec Ideal S32768x256x4 .f32) (w : FVec Ideal S256x256x4 .f32) (b : FVec Ideal S256x4 .f32)
    (h : fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [fn] at h0
  obtain ⟨h01, h2⟩ := IntOp.andi_eq_one.mp h0
  obtain ⟨hx, hw⟩ := IntOp.andi_eq_one.mp h01
  exact ⟨Cert.FiniteAll.all_real x _ _ _ _ hx, Cert.FiniteAll.all_real w _ _ _ _ hw, Cert.FiniteAll.all_real b _ _ _ _ h2⟩

end Cert.Pre_finite_inputs.Reals

end
-- ==== Proof.lean ====
/-
  The quaternion linear layer computed as one dense 1024 × 1024 matrix product equals the layer computed as sixteen
  256 × 256 products combined with the Hamilton product's signs, on finite inputs.

  The kernel program lays the weight `w[o, i, ·]` out as a 1024 × 1024 matrix whose entry at row `4 i + ci`, column
  `4 o + c` is `± w[o, i, c xor ci]` (the Hamilton product's table), reads the input and the bias flat, and in one region of
  sixteen row blocks multiplies the flat input by that matrix and adds the flat bias (`Cert.Quat.kerVal`). The reference
  takes the four component planes of the input and of the weight, sixteen plane products, and combines them
  (`Cert.Quat.refVal`). The two agree entry by entry once every entry is a real number: the flat sum of 1024 products taken
  in blocks of four is a sum over the 256 quaternions of four signed products, and distributing the sum over the four
  terms — a law of the reals that fails at infinities — gives the reference's combination. That is where the
  precondition is used.

  Frames: both readings of the kernel program run to the end through the same proof of the region (its body loads three
  whole blocks and stores one); the reference is a straight line of host operations. The idealization rewrote nothing, so
  there is nothing to preserve.
-/
import proofs.«149754_j7189775253858_1_alg».proof.Defs
import proofs.«149754_j7189775253858_1_alg».proof.Proof.Gen.Kernel
import proofs.«149754_j7189775253858_1_alg».proof.Proof.Gen.KernelIdeal
import proofs.«149754_j7189775253858_1_alg».proof.Proof.Gen.ReferenceIdeal
import proofs.«149754_j7189775253858_1_alg».proof.Proof.Gen.Pre_finite_inputs
import proofs.«149754_j7189775253858_1_alg».proof.Proof.Gen.ReferenceIdeal.Run
import proofs.«149754_j7189775253858_1_alg».proof.Proof.Gen.ReferenceIdeal.Read
import proofs.«149754_j7189775253858_1_alg».proof.Proof.FrameRunBits
import proofs.«149754_j7189775253858_1_alg».proof.Proof.FrameRunIdeal
import proofs.«149754_j7189775253858_1_alg».proof.Proof.KernelValue
import proofs.«149754_j7189775253858_1_alg».proof.Proof.HamMatrix
import proofs.«149754_j7189775253858_1_alg».proof.Proof.RefValue
import proofs.«149754_j7189775253858_1_alg».proof.Proof.QuatAlgebra
import proofs.«149754_j7189775253858_1_alg».proof.Proof.FiniteInputs
import Idealize.ShloMosaic.Adequacy
import Idealize.ShloMosaic.Init

noncomputable section

namespace Cert.Proof

open Idealize.ShloMosaic Idealize.SL.Sem

/-- The kernel program as printed runs to its end, faults nowhere and leaves its arguments unchanged. -/
theorem frame_kernel : Cert.frame_Kernel := fun m ρ _ => Cert.Kernel.FrameRun.frame m ρ

/-- So does its idealized reading. -/
theorem frame_kernelIdeal : Cert.frame_KernelIdeal := fun m ρ _ => Cert.KernelIdeal.FrameRun.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program's run with its result named: the layer as one flat product of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v86)
          = Cert.Quat.kerVal (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run Cert.KernelIdeal.defs _ _).mono (fun _ h c =>
    ⟨(h c).1.trans (Cert.KernelIdeal.KernelValue.kerVal_of _ _ _ _ _ _
        (Cert.KernelIdeal.HamMatrix.v84_apply m c) (Cert.KernelIdeal.HamMatrix.v82_apply m c) (Cert.KernelIdeal.HamMatrix.v83_apply m c)),
      (h c).2⟩)
    (Cert.KernelIdeal.KernelValue.run_flat m ρ)

/-- The two idealized programs, run from memories agreeing on finite arguments, end with equal results. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, -⟩ := Cert.Pre_finite_inputs.Reals.entries_real _ _ _ (hpre c)
  rw [Cert.ReferenceIdeal.Read.val_main_v51_eq, Cert.ReferenceIdeal.RefValue.ref_eq, (hagree c).1, (hagree c).2.1, (hagree c).2.2]
  exact (Cert.Quat.kerVal_eq_refVal _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
